-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S65536x512 : Shape := ⟨2, ![65536, 512]⟩
abbrev S512x256 : Shape := ⟨2, ![512, 256]⟩
abbrev S512 : Shape := ⟨1, ![512]⟩
abbrev S1536x512 : Shape := ⟨2, ![1536, 512]⟩
abbrev S1536 : Shape := ⟨1, ![1536]⟩
abbrev S32x512 : Shape := ⟨2, ![32, 512]⟩
abbrev S32 : Shape := ⟨1, ![32]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S65536x512 : S_.BroadcastsInDim S65536x512 (![] : Fin 0 → Fin S65536x512.rank)
  reducesTo_S65536x512_S_d0_1 : S65536x512.ReducesTo [0, 1] S_
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_
  bcast_S_S1536x512 : S_.BroadcastsInDim S1536x512 (![] : Fin 0 → Fin S1536x512.rank)
  reducesTo_S1536x512_S_d0_1 : S1536x512.ReducesTo [0, 1] S_
  bcast_S_S1536 : S_.BroadcastsInDim S1536 (![] : Fin 0 → Fin S1536.rank)
  reducesTo_S1536_S_d0 : S1536.ReducesTo [0] S_
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_

variable [Facts]

def fn_part3 {F : FTy → Type} [FloatOps F] (main_arg11 : FVec F S32 .f32) (main_v48 : IVec S_ 1) (main_v49 : FVec F S32x512 .f32) (main_v50 : FVec F S32x512 .f32) : IVec S_ 1 :=
  let main_v51 : IVec S32x512 1 := cmpf .olt main_v49 main_v50
  let main_c_19 : IVec S_ 1 := constantI S_ 1 1#1
  let main_v52 : IVec S_ 1 := (fun x v => Host.reduce IntOp.andi x v reducesTo_S32x512_S_d0_1 h_S_) main_v51 main_c_19
  let main_v53 : IVec S_ 1 := andi main_v48 main_v52
  let main_v54 : FVec F S32 .f32 := Host.absf main_arg11
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  main_v58

def fn_part2 {F : FTy → Type} [FloatOps F] (main_arg7 : FVec F S1536 .f32) (main_arg8 : FVec F S32x512 .f32) (main_arg9 : FVec F S32 .f32) (main_arg10 : FVec F S32x512 .f32) (main_arg11 : FVec F S32 .f32) (main_v33 : IVec S_ 1) : IVec S_ 1 :=
  let main_v34 : FVec F S1536 .f32 := Host.absf main_arg7
  let main_cst_12 : FVec F S_ .f32 := constant S_ .f32 0x7F800000#32
  let main_v35 : FVec F S1536 .f32 := broadcastInDim S1536 ![] bcast_S_S1536 main_cst_12
  let main_v36 : IVec S1536 1 := cmpf .olt main_v34 main_v35
  let main_c_13 : IVec S_ 1 := constantI S_ 1 1#1
  let main_v37 : IVec S_ 1 := (fun x v => Host.reduce IntOp.andi x v reducesTo_S1536_S_d0 h_S_) main_v36 main_c_13
  let main_v38 : IVec S_ 1 := andi main_v33 main_v37
  let main_v39 : FVec F S32x512 .f32 := Host.absf main_arg8
  let main_cst_14 : FVec F S_ .f32 := constant S_ .f32 0x7F800000#32
  let main_v40 : FVec F S32x512 .f32 := broadcastInDim S32x512 ![] bcast_S_S32x512 main_cst_14
  let main_v41 : IVec S32x512 1 := cmpf .olt main_v39 main_v40
  let main_c_15 : IVec S_ 1 := constantI S_ 1 1#1
  let main_v42 : IVec S_ 1 := (fun x v => Host.reduce IntOp.andi x v reducesTo_S32x512_S_d0_1 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x512 .f32 := Host.absf main_arg10
  let main_cst_18 : FVec F S_ .f32 := constant S_ .f32 0x7F800000#32
  let main_v50 : FVec F S32x512 .f32 := broadcastInDim S32x512 ![] bcast_S_S32x512 main_cst_18
  fn_part3 (F := F) main_arg11 main_v48 main_v49 main_v50

def fn_part1 {F : FTy → Type} [FloatOps F] (main_arg4 : FVec F S1536x512 .f32) (main_arg5 : FVec F S1536x512 .f32) (main_arg6 : FVec F S1536 .f32) (main_arg7 : FVec F S1536 .f32) (main_arg8 : FVec F S32x512 .f32) (main_arg9 : FVec F S32 .f32) (main_arg10 : FVec F S32x512 .f32) (main_arg11 : FVec F S32 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S1536x512 .f32 := Host.absf main_arg4
  let main_cst_6 : FVec F S_ .f32 := constant S_ .f32 0x7F800000#32
  let main_v20 : FVec F S1536x512 .f32 := broadcastInDim S1536x512 ![] bcast_S_S1536x512 main_cst_6
  let main_v21 : IVec S1536x512 1 := cmpf .olt main_v19 main_v20
  let main_c_7 : IVec S_ 1 := constantI S_ 1 1#1
  let main_v22 : IVec S_ 1 := (fun x v => Host.reduce IntOp.andi x v reducesTo_S1536x512_S_d0_1 h_S_) main_v21 main_c_7
  let main_v23 : IVec S_ 1 := andi main_v18 main_v22
  let main_v24 : FVec F S1536x512 .f32 := Host.absf main_arg5
  let main_cst_8 : FVec F S_ .f32 := constant S_ .f32 0x7F800000#32
  let main_v25 : FVec F S1536x512 .f32 := broadcastInDim S1536x512 ![] bcast_S_S1536x512 main_cst_8
  let main_v26 : IVec S1536x512 1 := cmpf .olt main_v24 main_v25
  let main_c_9 : IVec S_ 1 := constantI S_ 1 1#1
  let main_v27 : IVec S_ 1 := (fun x v => Host.reduce IntOp.andi x v reducesTo_S1536x512_S_d0_1 h_S_) main_v26 main_c_9
  let main_v28 : IVec S_ 1 := andi main_v23 main_v27
  let main_v29 : FVec F S1536 .f32 := Host.absf main_arg6
  let main_cst_10 : FVec F S_ .f32 := constant S_ .f32 0x7F800000#32
  let main_v30 : FVec F S1536 .f32 := broadcastInDim S1536 ![] bcast_S_S1536 main_cst_10
  let main_v31 : IVec S1536 1 := cmpf .olt main_v29 main_v30
  let main_c_11 : IVec S_ 1 := constantI S_ 1 1#1
  let main_v32 : IVec S_ 1 := (fun x v => Host.reduce IntOp.andi x v reducesTo_S1536_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S65536x256 .f32) (main_arg1 : FVec F S65536x512 .f32) (main_arg2 : FVec F S512x256 .f32) (main_arg3 : FVec F S512 .f32) (main_arg4 : FVec F S1536x512 .f32) (main_arg5 : FVec F S1536x512 .f32) (main_arg6 : FVec F S1536 .f32) (main_arg7 : FVec F S1536 .f32) (main_arg8 : FVec F S32x512 .f32) (main_arg9 : FVec F S32 .f32) (main_arg10 : FVec F S32x512 .f32) (main_arg11 : FVec F S32 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x512 .f32 := Host.absf main_arg1
  let main_cst_0 : FVec F S_ .f32 := constant S_ .f32 0x7F800000#32
  let main_v5 : FVec F S65536x512 .f32 := broadcastInDim S65536x512 ![] bcast_S_S65536x512 main_cst_0
  let main_v6 : IVec S65536x512 1 := cmpf .olt main_v4 main_v5
  let main_c_1 : IVec S_ 1 := constantI S_ 1 1#1
  let main_v7 : IVec S_ 1 := (fun x v => Host.reduce IntOp.andi x v reducesTo_S65536x512_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_v13 main_v16
-- ==== Kernel.lean ====
abbrev S65536x256 : Shape := ⟨2, ![65536, 256]⟩
abbrev S65536x512 : Shape := ⟨2, ![65536, 512]⟩
abbrev S512x256 : Shape := ⟨2, ![512, 256]⟩
abbrev S512 : Shape := ⟨1, ![512]⟩
abbrev S1536x512 : Shape := ⟨2, ![1536, 512]⟩
abbrev S1536 : Shape := ⟨1, ![1536]⟩
abbrev S32x512 : Shape := ⟨2, ![32, 512]⟩
abbrev S32 : Shape := ⟨1, ![32]⟩
abbrev S256x512 : Shape := ⟨2, ![256, 512]⟩
abbrev S512x1536 : Shape := ⟨2, ![512, 1536]⟩
abbrev S64x512 : Shape := ⟨2, ![64, 512]⟩
abbrev S512x64 : Shape := ⟨2, ![512, 64]⟩
abbrev S64 : Shape := ⟨1, ![64]⟩
abbrev S65536x64 : Shape := ⟨2, ![65536, 64]⟩
abbrev S512x512 : Shape := ⟨2, ![512, 512]⟩
abbrev S1x512 : Shape := ⟨2, ![1, 512]⟩
abbrev S1x1536 : Shape := ⟨2, ![1, 1536]⟩
abbrev S1x64 : Shape := ⟨2, ![1, 64]⟩
abbrev S131072x32 : Shape := ⟨2, ![131072, 32]⟩

abbrev nBuf : Space → Nat
  | .hbm => 25
  | .vmem => 16
  | .smem => 0
  | _ => 0

abbrev bufTy : (tb : Table) → Fin (tcTables nBuf tb) → BufTy
  | .hbm, ⟨0, _⟩ => ⟨S65536x256, .f32⟩
  | .hbm, ⟨1, _⟩ => ⟨S65536x512, .f32⟩
  | .hbm, ⟨2, _⟩ => ⟨S512x256, .f32⟩
  | .hbm, ⟨3, _⟩ => ⟨S512, .f32⟩
  | .hbm, ⟨4, _⟩ => ⟨S1536x512, .f32⟩
  | .hbm, ⟨5, _⟩ => ⟨S1536x512, .f32⟩
  | .hbm, ⟨6, _⟩ => ⟨S1536, .f32⟩
  | .hbm, ⟨7, _⟩ => ⟨S1536, .f32⟩
  | .hbm, ⟨8, _⟩ => ⟨S32x512, .f32⟩
  | .hbm, ⟨9, _⟩ => ⟨S32, .f32⟩
  | .hbm, ⟨10, _⟩ => ⟨S32x512, .f32⟩
  | .hbm, ⟨11, _⟩ => ⟨S32, .f32⟩
  | .hbm, ⟨12, _⟩ => ⟨S256x512, .f32⟩
  | .hbm, ⟨13, _⟩ => ⟨S256x512, .bf16⟩
  | .hbm, ⟨14, _⟩ => ⟨S512x1536, .f32⟩
  | .hbm, ⟨15, _⟩ => ⟨S512x1536, .bf16⟩
  | .hbm, ⟨16, _⟩ => ⟨S512x1536, .f32⟩
  | .hbm, ⟨17, _⟩ => ⟨S512x1536, .bf16⟩
  | .hbm, ⟨18, _⟩ => ⟨S64x512, .f32⟩
  | .hbm, ⟨19, _⟩ => ⟨S512x64, .f32⟩
  | .hbm, ⟨20, _⟩ => ⟨S512x64, .bf16⟩
  | .hbm, ⟨21, _⟩ => ⟨S64, .f32⟩
  | .hbm, ⟨22, _⟩ => ⟨S65536x64, .f32⟩
  | .hbm, ⟨23, _⟩ => ⟨S65536x512, .f32⟩
  | .hbm, ⟨24, _⟩ => ⟨S131072x32, .f32⟩
  | .local _ .vmem, ⟨0, _⟩ => ⟨S512x256, .f32⟩
  | .local _ .vmem, ⟨1, _⟩ => ⟨S512x256, .f32⟩
  | .local _ .vmem, ⟨2, _⟩ => ⟨S512x512, .f32⟩
  | .local _ .vmem, ⟨3, _⟩ => ⟨S512x512, .f32⟩
  | .local _ .vmem, ⟨4, _⟩ => ⟨S256x512, .bf16⟩
  | .local _ .vmem, ⟨5, _⟩ => ⟨S512, .f32⟩
  | .local _ .vmem, ⟨6, _⟩ => ⟨S512x1536, .bf16⟩
  | .local _ .vmem, ⟨7, _⟩ => ⟨S512x1536, .bf16⟩
  | .local _ .vmem, ⟨8, _⟩ => ⟨S1536, .f32⟩
  | .local _ .vmem, ⟨9, _⟩ => ⟨S1536, .f32⟩
  | .local _ .vmem, ⟨10, _⟩ => ⟨S512x64, .bf16⟩
  | .local _ .vmem, ⟨11, _⟩ => ⟨S64, .f32⟩
  | .local _ .vmem, ⟨12, _⟩ => ⟨S512x64, .f32⟩
  | .local _ .vmem, ⟨13, _⟩ => ⟨S512x64, .f32⟩
  | .local _ .vmem, ⟨14, _⟩ => ⟨S512x512, .f32⟩
  | .local _ .vmem, ⟨15, _⟩ => ⟨S512x512, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v11 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  transposes_S512x256_S256x512_1_0 : S512x256.Transposes [1, 0] S256x512
  bitsLt_bf16_f32 : FTy.bits .bf16 < FTy.bits .f32
  transposes_S1536x512_S512x1536_1_0 : S1536x512.Transposes [1, 0] S512x1536
  concatenates_S32x512_S32x512_S64x512_d0 : Shape.Concatenates [S32x512, S32x512] S64x512 0
  transposes_S64x512_S512x64_1_0 : S64x512.Transposes [1, 0] S512x64
  concatenates_S32_S32_S64_d0 : Shape.Concatenates [S32, S32] S64 0
  inb_S512x256_S512x256_0_0 : ∀ a, (![0, 0] : Fin 2 → Nat) a + S512x256.size a ≤ S512x256.size a
  h_S512x256 : 0 < S512x256.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S1536_S1536_0 : ∀ a, (![0] : Fin 1 → Nat) a + S1536.size a ≤ S1536.size a
  h_S1536 : 0 < S1536.numel
  shapeCasts_S1536_S1x1536 : S1536.ShapeCasts S1x1536
  broadcasts_S1x1536_S512x1536 : S1x1536.Broadcasts S512x1536
  slices_S512x1536_o0_0_S512x512 : S512x1536.Slices ![0, 0] S512x512
  slices_S512x1536_o0_512_S512x512 : S512x1536.Slices ![0, 512] S512x512
  slices_S512x1536_o0_1024_S512x512 : S512x1536.Slices ![0, 1024] S512x512
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S64_S64_0 : ∀ a, (![0] : Fin 1 → Nat) a + S64.size a ≤ S64.size a
  h_S64 : 0 < S64.numel
  shapeCasts_S64_S64 : S64.ShapeCasts S64
  shapeCasts_S64_S1x64 : S64.ShapeCasts S1x64
  broadcasts_S1x64_S512x64 : S1x64.Broadcasts S512x64
  shapeCasts_S65536x64_S131072x32 : S65536x64.ShapeCasts S131072x32
  dot_S512x256_S256x512_S512x512_1_0_0_1_n_n_wf : DotDims.WF S512x256 S256x512 S512x512 [1] [0] [0] [1] [] []
  dot_S512x512_S512x1536_S512x1536_1_0_0_1_n_n_wf : DotDims.WF S512x512 S512x1536 S512x1536 [1] [0] [0] [1] [] []
  dot_S512x512_S512x64_S512x64_1_0_0_1_n_n_wf : DotDims.WF S512x512 S512x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S65536x256.size a
  hwx0_0 : ∀ i : grid0.Coords, EltTy.bits .f32 = 32 ∨ (Rect.block (s := S65536x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S65536x512.size a
  hwx0_1 : ∀ i : grid0.Coords, EltTy.bits .f32 = 32 ∨ (Rect.block (s := S65536x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .bf16 = 32 ∨ (Rect.block (s := S256x512) S256x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1536.size a ≤ S512x1536.size a
  hwx0_4 : ∀ i : grid0.Coords, EltTy.bits .bf16 = 32 ∨ (Rect.block (s := S512x1536) S512x1536.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1536.size a ≤ S512x1536.size a
  hwx0_5 : ∀ i : grid0.Coords, EltTy.bits .bf16 = 32 ∨ (Rect.block (s := S512x1536) S512x1536.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1536.size a ≤ S1536.size a
  hwx0_6 : ∀ i : grid0.Coords, EltTy.bits .f32 = 32 ∨ (Rect.block (s := S1536) S1536.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1536.size a ≤ S1536.size a
  hwx0_7 : ∀ i : grid0.Coords, EltTy.bits .f32 = 32 ∨ (Rect.block (s := S1536) S1536.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x64.size a ≤ S512x64.size a
  hwx0_8 : ∀ i : grid0.Coords, EltTy.bits .bf16 = 32 ∨ (Rect.block (s := S512x64) S512x64.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64.size a ≤ S64.size a
  hwx0_9 : ∀ i : grid0.Coords, EltTy.bits .f32 = 32 ∨ (Rect.block (s := S64) S64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x64.size a ≤ S65536x64.size a
  hwx0_10 : ∀ i : grid0.Coords, EltTy.bits .f32 = 32 ∨ (Rect.block (s := S65536x64) S512x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x512.size a ≤ S65536x512.size a
  hwx0_11 : ∀ i : grid0.Coords, EltTy.bits .f32 = 32 ∨ (Rect.block (s := S65536x512) S512x512.size (cc0_transform_11 i) (hinb0_11 i)).WholeWords (EltTy.packing .f32)

variable [Facts₀]

def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S512x512_S512x1536_S512x1536_1_0_0_1_n_n : DotDims S512x512 S512x1536 S512x1536 where
  lhsContracting := [1]
  rhsContracting := [0]
  lhsNonContracting := [0]
  rhsNonContracting := [1]
  lhsBatch := []
  rhsBatch := []
  wf := dot_S512x512_S512x1536_S512x1536_1_0_0_1_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x1536.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S512x1536.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1536.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1536.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S512x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10_0) S512x64.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v10_1) S512x512.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S65536x256 : Shape := ⟨2, ![65536, 256]⟩
abbrev S65536x512 : Shape := ⟨2, ![65536, 512]⟩
abbrev S512x256 : Shape := ⟨2, ![512, 256]⟩
abbrev S512 : Shape := ⟨1, ![512]⟩
abbrev S1536x512 : Shape := ⟨2, ![1536, 512]⟩
abbrev S1536 : Shape := ⟨1, ![1536]⟩
abbrev S32x512 : Shape := ⟨2, ![32, 512]⟩
abbrev S32 : Shape := ⟨1, ![32]⟩
abbrev S256x512 : Shape := ⟨2, ![256, 512]⟩
abbrev S1x512 : Shape := ⟨2, ![1, 512]⟩
abbrev S_ : Shape := ⟨0, ![]⟩
abbrev S512x1536 : Shape := ⟨2, ![512, 1536]⟩
abbrev S65536x1536 : Shape := ⟨2, ![65536, 1536]⟩
abbrev S1x1536 : Shape := ⟨2, ![1, 1536]⟩
abbrev S512x32 : Shape := ⟨2, ![512, 32]⟩
abbrev S65536x32 : Shape := ⟨2, ![65536, 32]⟩
abbrev S1x32 : Shape := ⟨2, ![1, 32]⟩
abbrev S65536x1x32 : Shape := ⟨3, ![65536, 1, 32]⟩
abbrev S65536x2x32 : Shape := ⟨3, ![65536, 2, 32]⟩
abbrev S131072x32 : Shape := ⟨2, ![131072, 32]⟩

abbrev nBuf : Space → Nat
  | .hbm => 77
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536x512, .f32⟩
  | .hbm, ⟨2, _⟩ => ⟨S512x256, .f32⟩
  | .hbm, ⟨3, _⟩ => ⟨S512, .f32⟩
  | .hbm, ⟨4, _⟩ => ⟨S1536x512, .f32⟩
  | .hbm, ⟨5, _⟩ => ⟨S1536x512, .f32⟩
  | .hbm, ⟨6, _⟩ => ⟨S1536, .f32⟩
  | .hbm, ⟨7, _⟩ => ⟨S1536, .f32⟩
  | .hbm, ⟨8, _⟩ => ⟨S32x512, .f32⟩
  | .hbm, ⟨9, _⟩ => ⟨S32, .f32⟩
  | .hbm, ⟨10, _⟩ => ⟨S32x512, .f32⟩
  | .hbm, ⟨11, _⟩ => ⟨S32, .f32⟩
  | .hbm, ⟨12, _⟩ => ⟨S256x512, .f32⟩
  | .hbm, ⟨13, _⟩ => ⟨S65536x512, .f32⟩
  | .hbm, ⟨14, _⟩ => ⟨S1x512, .f32⟩
  | .hbm, ⟨15, _⟩ => ⟨S65536x512, .f32⟩
  | .hbm, ⟨16, _⟩ => ⟨S65536x512, .f32⟩
  | .hbm, ⟨17, _⟩ => ⟨S_, .f32⟩
  | .hbm, ⟨18, _⟩ => ⟨S65536x512, .f32⟩
  | .hbm, ⟨19, _⟩ => ⟨S65536x512, .f32⟩
  | .hbm, ⟨20, _⟩ => ⟨S512x1536, .f32⟩
  | .hbm, ⟨21, _⟩ => ⟨S65536x1536, .f32⟩
  | .hbm, ⟨22, _⟩ => ⟨S1x1536, .f32⟩
  | .hbm, ⟨23, _⟩ => ⟨S65536x1536, .f32⟩
  | .hbm, ⟨24, _⟩ => ⟨S65536x1536, .f32⟩
  | .hbm, ⟨25, _⟩ => ⟨S512x1536, .f32⟩
  | .hbm, ⟨26, _⟩ => ⟨S65536x1536, .f32⟩
  | .hbm, ⟨27, _⟩ => ⟨S1x1536, .f32⟩
  | .hbm, ⟨28, _⟩ => ⟨S65536x1536, .f32⟩
  | .hbm, ⟨29, _⟩ => ⟨S65536x1536, .f32⟩
  | .hbm, ⟨30, _⟩ => ⟨S65536x512, .f32⟩
  | .hbm, ⟨31, _⟩ => ⟨S65536x512, .f32⟩
  | .hbm, ⟨32, _⟩ => ⟨S65536x512, .f32⟩
  | .hbm, ⟨33, _⟩ => ⟨S65536x512, .f32⟩
  | .hbm, ⟨34, _⟩ => ⟨S65536x512, .f32⟩
  | .hbm, ⟨35, _⟩ => ⟨S65536x512, .f32⟩
  | .hbm, ⟨36, _⟩ => ⟨S65536x512, .f32⟩
  | .hbm, ⟨37, _⟩ => ⟨S65536x512, .f32⟩
  | .hbm, ⟨38, _⟩ => ⟨S65536x512, .f32⟩
  | .hbm, ⟨39, _⟩ => ⟨S_, .f32⟩
  | .hbm, ⟨40, _⟩ => ⟨S65536x512, .f32⟩
  | .hbm, ⟨41, _⟩ => ⟨S65536x512, .f32⟩
  | .hbm, ⟨42, _⟩ => ⟨S_, .f32⟩
  | .hbm, ⟨43, _⟩ => ⟨S65536x512, .f32⟩
  | .hbm, ⟨44, _⟩ => ⟨S65536x512, .f32⟩
  | .hbm, ⟨45, _⟩ => ⟨S65536x512, .f32⟩
  | .hbm, ⟨46, _⟩ => ⟨S65536x512, .f32⟩
  | .hbm, ⟨47, _⟩ => ⟨S65536x512, .f32⟩
  | .hbm, ⟨48, _⟩ => ⟨S_, .f32⟩
  | .hbm, ⟨49, _⟩ => ⟨S65536x512, .f32⟩
  | .hbm, ⟨50, _⟩ => ⟨S65536x512, .f32⟩
  | .hbm, ⟨51, _⟩ => ⟨S_, .f32⟩
  | .hbm, ⟨52, _⟩ => ⟨S65536x512, .f32⟩
  | .hbm, ⟨53, _⟩ => ⟨S65536x512, .f32⟩
  | .hbm, ⟨54, _⟩ => ⟨S65536x512, .f32⟩
  | .hbm, ⟨55, _⟩ => ⟨S65536x512, .f32⟩
  | .hbm, ⟨56, _⟩ => ⟨S65536x512, .f32⟩
  | .hbm, ⟨57, _⟩ => ⟨S_, .f32⟩
  | .hbm, ⟨58, _⟩ => ⟨S65536x512, .f32⟩
  | .hbm, ⟨59, _⟩ => ⟨S65536x512, .f32⟩
  | .hbm, ⟨60, _⟩ => ⟨S65536x512, .f32⟩
  | .hbm, ⟨61, _⟩ => ⟨S65536x512, .f32⟩
  | .hbm, ⟨62, _⟩ => ⟨S65536x512, .f32⟩
  | .hbm, ⟨63, _⟩ => ⟨S512x32, .f32⟩
  | .hbm, ⟨64, _⟩ => ⟨S65536x32, .f32⟩
  | .hbm, ⟨65, _⟩ => ⟨S1x32, .f32⟩
  | .hbm, ⟨66, _⟩ => ⟨S65536x32, .f32⟩
  | .hbm, ⟨67, _⟩ => ⟨S65536x32, .f32⟩
  | .hbm, ⟨68, _⟩ => ⟨S512x32, .f32⟩
  | .hbm, ⟨69, _⟩ => ⟨S65536x32, .f32⟩
  | .hbm, ⟨70, _⟩ => ⟨S1x32, .f32⟩
  | .hbm, ⟨71, _⟩ => ⟨S65536x32, .f32⟩
  | .hbm, ⟨72, _⟩ => ⟨S65536x32, .f32⟩
  | .hbm, ⟨73, _⟩ => ⟨S65536x1x32, .f32⟩
  | .hbm, ⟨74, _⟩ => ⟨S65536x1x32, .f32⟩
  | .hbm, ⟨75, _⟩ => ⟨S65536x2x32, .f32⟩
  | .hbm, ⟨76, _⟩ => ⟨S131072x32, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call0_cst : Ref sig .tc := ⟨.hbm, 17, rfl⟩
abbrev main_call0_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst : Ref sig .tc := ⟨.hbm, 39, rfl⟩
abbrev main_v25 : Ref sig .tc := ⟨.hbm, 40, rfl⟩
abbrev main_v26 : Ref sig .tc := ⟨.hbm, 41, rfl⟩
abbrev main_cst_0 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_1 : Ref sig .tc := ⟨.hbm, 48, rfl⟩
abbrev main_v32 : Ref sig .tc := ⟨.hbm, 49, rfl⟩
abbrev main_v33 : Ref sig .tc := ⟨.hbm, 50, rfl⟩
abbrev main_cst_2 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_3 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩

abbrev nD : Nat := 1
abbrev τ : Topo := Topo.v7x

variable {F : FTy → Type} [FloatOps F]

class Facts₀ : Prop where
  transposes_S512x256_S256x512_1_0 : S512x256.Transposes [1, 0] S256x512
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  bcast_S_S65536x512 : S_.BroadcastsInDim S65536x512 (![] : Fin 0 → Fin S65536x512.rank)
  transposes_S1536x512_S512x1536_1_0 : S1536x512.Transposes [1, 0] S512x1536
  bcast_S1536_S1x1536_1 : S1536.BroadcastsInDim S1x1536 (![1] : Fin 1 → Fin S1x1536.rank)
  bcast_S1x1536_S65536x1536_0_1 : S1x1536.BroadcastsInDim S65536x1536 (![0, 1] : Fin 2 → Fin S65536x1536.rank)
  slices_S65536x1536_S65536x512_0_0 : S65536x1536.Slices ![0, 0] S65536x512
  slices_S65536x1536_S65536x512_0_512 : S65536x1536.Slices ![0, 512] S65536x512
  slices_S65536x1536_S65536x512_0_1024 : S65536x1536.Slices ![0, 1024] S65536x512
  transposes_S32x512_S512x32_1_0 : S32x512.Transposes [1, 0] S512x32
  bcast_S32_S1x32_1 : S32.BroadcastsInDim S1x32 (![1] : Fin 1 → Fin S1x32.rank)
  bcast_S1x32_S65536x32_0_1 : S1x32.BroadcastsInDim S65536x32 (![0, 1] : Fin 2 → Fin S65536x32.rank)
  bcast_S65536x32_S65536x1x32_0_2 : S65536x32.BroadcastsInDim S65536x1x32 (![0, 2] : Fin 2 → Fin S65536x1x32.rank)
  concatenates_S65536x1x32_S65536x1x32_S65536x2x32_d1 : Shape.Concatenates [S65536x1x32, S65536x1x32] S65536x2x32 1
  shapeCasts_S65536x2x32_S131072x32 : S65536x2x32.ShapeCasts S131072x32
  dot_S65536x256_S256x512_S65536x512_1_0_0_1_n_n_wf : DotDims.WF S65536x256 S256x512 S65536x512 [1] [0] [0] [1] [] []
  dot_S65536x512_S512x1536_S65536x1536_1_0_0_1_n_n_wf : DotDims.WF S65536x512 S512x1536 S65536x1536 [1] [0] [0] [1] [] []
  dot_S65536x512_S512x32_S65536x32_1_0_0_1_n_n_wf : DotDims.WF S65536x512 S512x32 S65536x32 [1] [0] [0] [1] [] []

variable [Facts₀]

def dot_S65536x256_S256x512_S65536x512_1_0_0_1_n_n : DotDims S65536x256 S256x512 S65536x512 where
  lhsContracting := [1]
  rhsContracting := [0]
  lhsNonContracting := [0]
  rhsNonContracting := [1]
  lhsBatch := []
  rhsBatch := []
  wf := dot_S65536x256_S256x512_S65536x512_1_0_0_1_n_n_wf
def dot_S65536x512_S512x1536_S65536x1536_1_0_0_1_n_n : DotDims S65536x512 S512x1536 S65536x1536 where
  lhsContracting := [1]
  rhsContracting := [0]
  lhsNonContracting := [0]
  rhsNonContracting := [1]
  lhsBatch := []
  rhsBatch := []
  wf := dot_S65536x512_S512x1536_S65536x1536_1_0_0_1_n_n_wf
def dot_S65536x512_S512x32_S65536x32_1_0_0_1_n_n : DotDims S65536x512 S512x32 S65536x32 where
  lhsContracting := [1]
  rhsContracting := [0]
  lhsNonContracting := [0]
  rhsNonContracting := [1]
  lhsBatch := []
  rhsBatch := []
  wf := dot_S65536x512_S512x32_S65536x32_1_0_0_1_n_n_wf

class Facts : Prop extends Facts₀ where

variable [Facts]
-- ==== Proof.Spec.lean ====
/-
  The mathematics both programs compute, stated once over the extended reals and over no program.

  One batch row of the recurrent agent's step:
    a(j)   = max (Σₖ x(k)·W1(j,k) + b1(j), 0)                         (the input layer, rectified)
    gi(g)  = Σₖ a(k)·Wih(g,k) + bih(g),   gh(g) = Σₖ h(k)·Whh(g,k) + bhh(g)      (g over the 3·512 gate rows)
    r(u)   = σ(gi(u) + gh(u)),   z(u) = σ(gi(512+u) + gh(512+u)),   n(u) = tanh(gi(1024+u) + r(u)·gh(1024+u))
    h'(u)  = (1 − z(u))·n(u) + z(u)·h(u)                               (the gated recurrent unit's new state)
    q(v)   = Σₖ h'(k)·W2(v,k) + b2(v),  v over the 2·32 rows of the two output heads stacked
  with σ(t) = 1 / (1 + e^(−t)).  Every weight matrix enters through an accessor `w k j` whose FIRST argument is the
  summation index, so that a program holding the transposed matrix and one transposing on the fly instantiate the same
  function.  The two results as whole arrays: the new hidden state `hiddenOut` (65536 × 512) and the head values
  `headsOut` (131072 × 32), whose row 2·b + s is head s of batch row b — the row-major re-reading of a 65536 × 64 array.
-/
import Idealize.ShloMosaic.PureOps.Ideal
import Idealize.ShloMosaic.PureOps.Ideal.Laws
import Idealize.ShloMosaic.PureOps.IdealRules
import Idealize.ShloMosaic.Lib.ValueIdx

noncomputable section

namespace Cert.Gru

open Idealize.ShloMosaic Idealize.ShloMosaic.ValueIdx

/-- The word of 1.0 denotes the real number one. -/
theorem ofBits_one_f32 : Ideal.ofBits .f32 0x3F800000#32 = 1 := IdealRules.sign_bit.ideal_onePat .f32

/-- The logistic function written out with the word of 1.0 — quotient, sum, exponential, negation — is the logistic
    function, at every extended real. -/
theorem logistic_expanded (t : EReal) :
    Ideal.div (Ideal.ofBits .f32 0x3F800000#32) (Ideal.ofBits .f32 0x3F800000#32 + Ideal.exp (-t)) = Ideal.logistic t := by
  rw [ofBits_one_f32]; rfl

/-- One entry of a dense layer: the inner product of a row with a weight column, plus the bias. -/
def dense {K : ℕ} (x w : Fin K → EReal) (b : EReal) : EReal := (∑ k : Fin K, x k * w k) + b

/-- The rectified input layer of one row. -/
def inputLayer (x : Fin 256 → EReal) (w1 : Fin 256 → Fin 512 → EReal) (b1 : Fin 512 → EReal) (j : Fin 512) : EReal :=
  max (dense x (fun k => w1 k j) (b1 j)) (Ideal.ofBits .f32 0x00000000#32)

/-- Gate row `o + u` of the 3·512 gate rows, for the band starting at `o`. -/
def gateRow (o : ℕ) (ho : o + 512 ≤ 1536) (u : Fin 512) : Fin 1536 := ⟨o + u.val, by have := u.isLt; omega⟩

/-- The gated recurrent unit's new state of one row, from the rectified input `a` and the old state `h`. -/
def newState (a h : Fin 512 → EReal) (wih whh : Fin 512 → Fin 1536 → EReal) (bih bhh : Fin 1536 → EReal) (u : Fin 512) : EReal :=
  let gi : Fin 1536 → EReal := fun g => dense a (fun k => wih k g) (bih g)
  let gh : Fin 1536 → EReal := fun g => dense h (fun k => whh k g) (bhh g)
  let r := Ideal.logistic (gi (gateRow 0 (by omega) u) + gh (gateRow 0 (by omega) u))
  let z := Ideal.logistic (gi (gateRow 512 (by omega) u) + gh (gateRow 512 (by omega) u))
  let n := Ideal.tanh (gi (gateRow 1024 (by omega) u) + r * gh (gateRow 1024 (by omega) u))
  (Ideal.ofBits .f32 0x3F800000#32 - z) * n + z * h u

/-- The whole step of one row: input layer, then the recurrent unit. -/
def rowState (x : Fin 256 → EReal) (h : Fin 512 → EReal) (w1 : Fin 256 → Fin 512 → EReal) (b1 : Fin 512 → EReal)
    (wih whh : Fin 512 → Fin 1536 → EReal) (bih bhh : Fin 1536 → EReal) (u : Fin 512) : EReal :=
  newState (inputLayer x w1 b1) h wih whh bih bhh u

/-! ## The two results as whole arrays of the argument arrays -/

abbrev A65536x256 : Shape := ⟨2, ![65536, 256]⟩
abbrev A65536x512 : Shape := ⟨2, ![65536, 512]⟩
abbrev A512x256 : Shape := ⟨2, ![512, 256]⟩
abbrev A512 : Shape := ⟨1, ![512]⟩
abbrev A1536x512 : Shape := ⟨2, ![1536, 512]⟩
abbrev A1536 : Shape := ⟨1, ![1536]⟩
abbrev A32x512 : Shape := ⟨2, ![32, 512]⟩
abbrev A32 : Shape := ⟨1, ![32]⟩
abbrev A131072x32 : Shape := ⟨2, ![131072, 32]⟩

/-- The new hidden state of batch row `b`, entry `u`. -/
def hiddenAt (X : A65536x256.Idx → EReal) (H : A65536x512.Idx → EReal) (W1 : A512x256.Idx → EReal) (B1 : A512.Idx → EReal)
    (Wih Whh : A1536x512.Idx → EReal) (Bih Bhh : A1536.Idx → EReal) (b : Fin 65536) (u : Fin 512) : EReal :=
  rowState (fun k => X (ix2 b k)) (fun k => H (ix2 b k)) (fun k j => W1 (ix2 j k)) (fun j => B1 (ix1 j))
    (fun k g => Wih (ix2 g k)) (fun k g => Whh (ix2 g k)) (fun g => Bih (ix1 g)) (fun g => Bhh (ix1 g)) u

/-- The new hidden state as an array. -/
def hiddenOut (X : A65536x256.Idx → EReal) (H : A65536x512.Idx → EReal) (W1 : A512x256.Idx → EReal) (B1 : A512.Idx → EReal)
    (Wih Whh : A1536x512.Idx → EReal) (Bih Bhh : A1536.Idx → EReal) : A65536x512.Idx → EReal :=
  fun i => hiddenAt X H W1 B1 Wih Whh Bih Bhh (i 0) (i 1)

/-- Row `v` of the two heads' weight matrices stacked (head one first), entry `k`. -/
def stackedWeight (W21 W22 : A32x512.Idx → EReal) (k : Fin 512) (v : Fin 64) : EReal :=
  if h : v.val < 32 then W21 (ix2 ⟨v.val, h⟩ k) else W22 (ix2 ⟨v.val - 32, by have := v.isLt; omega⟩ k)

/-- Entry `v` of the two heads' biases stacked. -/
def stackedBias (B21 B22 : A32.Idx → EReal) (v : Fin 64) : EReal :=
  if h : v.val < 32 then B21 (ix1 ⟨v.val, h⟩) else B22 (ix1 ⟨v.val - 32, by have := v.isLt; omega⟩)

/-- Both heads of batch row `b` side by side: entry `v` of the 64. -/
def headsAt (X : A65536x256.Idx → EReal) (H : A65536x512.Idx → EReal) (W1 : A512x256.Idx → EReal) (B1 : A512.Idx → EReal)
    (Wih Whh : A1536x512.Idx → EReal) (Bih Bhh : A1536.Idx → EReal) (W21 : A32x512.Idx → EReal) (B21 : A32.Idx → EReal)
    (W22 : A32x512.Idx → EReal) (B22 : A32.Idx → EReal) (b : Fin 65536) (v : Fin 64) : EReal :=
  dense (hiddenAt X H W1 B1 Wih Whh Bih Bhh b) (fun k => stackedWeight W21 W22 k v) (stackedBias B21 B22 v)

/-- The head values as the 131072 × 32 array: position `n = 32·i₀ + i₁` of the row-major order is entry `n mod 64` of
    batch row `n / 64`. -/
def headsOut (X : A65536x256.Idx → EReal) (H : A65536x512.Idx → EReal) (W1 : A512x256.Idx → EReal) (B1 : A512.Idx → EReal)
    (Wih Whh : A1536x512.Idx → EReal) (Bih Bhh : A1536.Idx → EReal) (W21 : A32x512.Idx → EReal) (B21 : A32.Idx → EReal)
    (W22 : A32x512.Idx → EReal) (B22 : A32.Idx → EReal) : A131072x32.Idx → EReal :=
  fun i => headsAt X H W1 B1 Wih Whh Bih Bhh W21 B21 W22 B22
    ⟨((i 0).val * 32 + (i 1).val) / 64, by have h0 : (i 0).val < 131072 := (i 0).isLt; have h1 : (i 1).val < 32 := (i 1).isLt; omega⟩
    ⟨((i 0).val * 32 + (i 1).val) % 64, Nat.mod_lt _ (by norm_num)⟩

end Cert.Gru

end
-- ==== Proof.ReferenceValue.lean ====
/-
  The reference program computes the specification.

  Stage by stage, the value the reference writes is read at an index and identified with the specification's
  functions: the rectified input layer, the two gate pre-activations (each a dense layer over the 3·512 gate rows),
  the three bands of each cut out by the slices, the gated recurrent unit's new state — where the reference spells
  the logistic function as 1 / (1 + e^(−t)) —, the two output heads, and their row interleave: position
  n = 32·i₀ + i₁ of the row-major order of the 131072 × 32 result is entry n mod 32 of head (n / 32) mod 2 of batch
  row n / 64, that is entry n mod 64 of the two heads side by side.
-/
import proofs.«105232_j18193481466268_2_alg».proof.Proof.Spec
import proofs.«105232_j18193481466268_2_alg».proof.Proof.Gen.ReferenceIdeal.Read
import Idealize.ShloMosaic.Lib.Pipeline.Value
import Idealize.ShloMosaic.Lib.ValueIdx
import Idealize.ShloMosaic.PureOps.Ideal

noncomputable section

namespace Cert.Gru.Reference

open Cert.ReferenceIdeal Cert.ReferenceIdeal.Read Idealize.ShloMosaic Idealize.ShloMosaic.ValueIdx Cert.Gru

variable (x0 : (⟨S65536x256, .f32⟩ : BufTy).Contents (Elt Ideal)) (x1 : (⟨S65536x512, .f32⟩ : BufTy).Contents (Elt Ideal))
  (x2 : (⟨S512x256, .f32⟩ : BufTy).Contents (Elt Ideal)) (x3 : (⟨S512, .f32⟩ : BufTy).Contents (Elt Ideal))
  (x4 x5 : (⟨S1536x512, .f32⟩ : BufTy).Contents (Elt Ideal)) (x6 x7 : (⟨S1536, .f32⟩ : BufTy).Contents (Elt Ideal))
  (x8 : (⟨S32x512, .f32⟩ : BufTy).Contents (Elt Ideal)) (x9 : (⟨S32, .f32⟩ : BufTy).Contents (Elt Ideal))
  (x10 : (⟨S32x512, .f32⟩ : BufTy).Contents (Elt Ideal)) (x11 : (⟨S32, .f32⟩ : BufTy).Contents (Elt Ideal))

/-- The rectified input layer: entry `j` of batch row `b`. -/
theorem input_at (b : Fin 65536) (j : Fin 512) :
    val_main_v5 (F := Ideal) x0 x2 x3 (ix2 b j)
      = inputLayer (fun k => x0 (ix2 b k)) (fun k j => x2 (ix2 j k)) (fun j => x3 (ix1 j)) j := by
  rw [val_main_v5_apply, val_main_v4_apply, val_main_v1_apply, val_main_v3_apply, val_main_v2_apply,
    val_main_call0_v0_apply, val_main_call0_cst_apply]
  have e3 : idx_main_v2 (idx_main_v3 (ix2 b j)) = ix1 j :=
    funext fun a => Fin.ext (by match a with | ⟨0, _⟩ => rfl)
  rw [e3, Ideal.maximumf_def, Ideal.addf_def, Ideal.ofBits_def]
  unfold inputLayer dense
  refine congrArg₂ max (congrArg₂ (· + ·) (Finset.sum_congr rfl fun k _ => ?_) rfl) rfl
  rw [val_main_v0_apply]
  exact congrArg₂ (· * ·)
    (congrArg x0 (funext fun a => Fin.ext (by match a with | ⟨0, _⟩ => rfl | ⟨1, _⟩ => rfl)))
    (congrArg x2 (funext fun a => Fin.ext (by match a with | ⟨0, _⟩ => rfl | ⟨1, _⟩ => rfl)))

/-- The input-side gate pre-activation: gate row `g` of batch row `b`. -/
theorem gi_at (b : Fin 65536) (g : Fin 1536) :
    val_main_v10 (F := Ideal) x0 x2 x3 x4 x6 (ix2 b g)
      = dense (inputLayer (fun k => x0 (ix2 b k)) (fun k j => x2 (ix2 j k)) (fun j => x3 (ix1 j)))
          (fun k => x4 (ix2 g k)) (x6 (ix1 g)) := by
  rw [val_main_v10_apply, val_main_v7_apply, val_main_v9_apply, val_main_v8_apply]
  have e9 : idx_main_v8 (idx_main_v9 (ix2 b g)) = ix1 g :=
    funext fun a => Fin.ext (by match a with | ⟨0, _⟩ => rfl)
  rw [e9, Ideal.addf_def]
  unfold dense
  refine congrArg₂ (· + ·) (Finset.sum_congr rfl fun k _ => ?_) rfl
  have el : lidx_main_v7 (ix2 b g) k = ix2 b k :=
    funext fun a => Fin.ext (by match a with | ⟨0, _⟩ => rfl | ⟨1, _⟩ => rfl)
  rw [el, input_at, val_main_v6_apply]
  exact congrArg₂ (· * ·) rfl
    (congrArg x4 (funext fun a => Fin.ext (by match a with | ⟨0, _⟩ => rfl | ⟨1, _⟩ => rfl)))

/-- The state-side gate pre-activation: gate row `g` of batch row `b`. -/
theorem gh_at (b : Fin 65536) (g : Fin 1536) :
    val_main_v15 (F := Ideal) x1 x5 x7 (ix2 b g)
      = dense (fun k => x1 (ix2 b k)) (fun k => x5 (ix2 g k)) (x7 (ix1 g)) := by
  rw [val_main_v15_apply, val_main_v12_apply, val_main_v14_apply, val_main_v13_apply]
  have e14 : idx_main_v13 (idx_main_v14 (ix2 b g)) = ix1 g :=
    funext fun a => Fin.ext (by match a with | ⟨0, _⟩ => rfl)
  rw [e14, Ideal.addf_def]
  unfold dense
  refine congrArg₂ (· + ·) (Finset.sum_congr rfl fun k _ => ?_) rfl
  rw [val_main_v11_apply]
  exact congrArg₂ (· * ·)
    (congrArg x1 (funext fun a => Fin.ext (by match a with | ⟨0, _⟩ => rfl | ⟨1, _⟩ => rfl)))
    (congrArg x5 (funext fun a => Fin.ext (by match a with | ⟨0, _⟩ => rfl | ⟨1, _⟩ => rfl)))

/-! The three slices of each pre-activation are its three bands of 512 gate rows. -/

theorem idx16 (b : Fin 65536) (u : Fin 512) : idx_main_v16 (ix2 b u) = ix2 b (gateRow 0 (by omega) u) :=
  funext fun a => Fin.ext (by
    match a with
    | ⟨0, _⟩ => rfl
    | ⟨1, _⟩ => exact (Nat.zero_add _).symm)
theorem idx17 (b : Fin 65536) (u : Fin 512) : idx_main_v17 (ix2 b u) = ix2 b (gateRow 512 (by omega) u) :=
  funext fun a => Fin.ext (by match a with | ⟨0, _⟩ => rfl | ⟨1, _⟩ => rfl)
theorem idx18 (b : Fin 65536) (u : Fin 512) : idx_main_v18 (ix2 b u) = ix2 b (gateRow 1024 (by omega) u) :=
  funext fun a => Fin.ext (by match a with | ⟨0, _⟩ => rfl | ⟨1, _⟩ => rfl)
theorem idx19 (b : Fin 65536) (u : Fin 512) : idx_main_v19 (ix2 b u) = ix2 b (gateRow 0 (by omega) u) :=
  funext fun a => Fin.ext (by
    match a with
    | ⟨0, _⟩ => rfl
    | ⟨1, _⟩ => exact (Nat.zero_add _).symm)
theorem idx20 (b : Fin 65536) (u : Fin 512) : idx_main_v20 (ix2 b u) = ix2 b (gateRow 512 (by omega) u) :=
  funext fun a => Fin.ext (by match a with | ⟨0, _⟩ => rfl | ⟨1, _⟩ => rfl)
theorem idx21 (b : Fin 65536) (u : Fin 512) : idx_main_v21 (ix2 b u) = ix2 b (gateRow 1024 (by omega) u) :=
  funext fun a => Fin.ext (by match a with | ⟨0, _⟩ => rfl | ⟨1, _⟩ => rfl)

/-- The recurrent unit's update with the logistic function written out is the update with the logistic function. -/
theorem cell_eq (i0 h0 i1 h1 i2 h2 h : EReal) :
    (Ideal.ofBits .f32 0x3F800000#32
        - Ideal.div (Ideal.ofBits .f32 0x3F800000#32) (Ideal.ofBits .f32 0x3F800000#32 + Ideal.exp (-(i1 + h1))))
      * Ideal.tanh (i2 + Ideal.div (Ideal.ofBits .f32 0x3F800000#32) (Ideal.ofBits .f32 0x3F800000#32 + Ideal.exp (-(i0 + h0))) * h2)
      + Ideal.div (Ideal.ofBits .f32 0x3F800000#32) (Ideal.ofBits .f32 0x3F800000#32 + Ideal.exp (-(i1 + h1))) * h
    = (Ideal.ofBits .f32 0x3F800000#32 - Ideal.logistic (i1 + h1)) * Ideal.tanh (i2 + Ideal.logistic (i0 + h0) * h2)
      + Ideal.logistic (i1 + h1) * h := by
  rw [logistic_expanded, logistic_expanded]

/-- The new hidden state: entry `u` of batch row `b`. -/
theorem hidden_at (b : Fin 65536) (u : Fin 512) :
    val_main_v43 (F := Ideal) x0 x1 x2 x3 x4 x5 x6 x7 (ix2 b u) = hiddenAt x0 x1 x2 x3 x4 x5 x6 x7 b u := by
  rw [val_main_v43_apply, val_main_v41_apply, val_main_v42_apply, val_main_v40_apply, val_main_v38_apply,
    val_main_v37_apply, val_main_v36_apply, val_main_v35_apply, val_main_v33_apply, val_main_v31_apply,
    val_main_v30_apply, val_main_v29_apply, val_main_v28_apply, val_main_v26_apply, val_main_v24_apply,
    val_main_v23_apply, val_main_v22_apply,
    val_main_v39_apply, val_main_cst_3_apply, val_main_v34_apply, val_main_cst_2_apply, val_main_v32_apply,
    val_main_cst_1_apply, val_main_v27_apply, val_main_cst_0_apply, val_main_v25_apply, val_main_cst_apply,
    val_main_v16_apply, val_main_v17_apply, val_main_v18_apply, val_main_v19_apply, val_main_v20_apply,
    val_main_v21_apply, idx16, idx17, idx18, idx19, idx20, idx21, gi_at, gi_at, gi_at, gh_at, gh_at, gh_at]
  exact cell_eq _ _ _ _ _ _ _

/-- The reference's first result is the specification's new hidden state. -/
theorem hidden_eq :
    Cert.ReferenceIdeal.Read.val_main_v43 (F := Ideal) x0 x1 x2 x3 x4 x5 x6 x7 = Cert.Gru.hiddenOut x0 x1 x2 x3 x4 x5 x6 x7 := by
  funext i
  obtain ⟨b, u, rfl⟩ : ∃ (b : Fin 65536) (u : Fin 512), i = ix2 b u := ⟨i 0, i 1, eq_ix2 i⟩
  exact hidden_at x0 x1 x2 x3 x4 x5 x6 x7 b u

/-- The first head: entry `v` of batch row `b`. -/
theorem head1_at (b : Fin 65536) (v : Fin 32) :
    val_main_v48 (F := Ideal) x0 x1 x2 x3 x4 x5 x6 x7 x8 x9 (ix2 b v)
      = dense (hiddenAt x0 x1 x2 x3 x4 x5 x6 x7 b) (fun k => x8 (ix2 v k)) (x9 (ix1 v)) := by
  rw [val_main_v48_apply, val_main_v45_apply, val_main_v47_apply, val_main_v46_apply]
  have e47 : idx_main_v46 (idx_main_v47 (ix2 b v)) = ix1 v :=
    funext fun a => Fin.ext (by match a with | ⟨0, _⟩ => rfl)
  rw [e47, Ideal.addf_def]
  unfold dense
  refine congrArg₂ (· + ·) (Finset.sum_congr rfl fun k _ => ?_) rfl
  have el : lidx_main_v45 (ix2 b v) k = ix2 b k :=
    funext fun a => Fin.ext (by match a with | ⟨0, _⟩ => rfl | ⟨1, _⟩ => rfl)
  rw [el, hidden_at, val_main_v44_apply]
  exact congrArg₂ (· * ·) rfl
    (congrArg x8 (funext fun a => Fin.ext (by match a with | ⟨0, _⟩ => rfl | ⟨1, _⟩ => rfl)))

/-- The second head: entry `v` of batch row `b`. -/
theorem head2_at (b : Fin 65536) (v : Fin 32) :
    val_main_v53 (F := Ideal) x0 x1 x2 x3 x4 x5 x6 x7 x10 x11 (ix2 b v)
      = dense (hiddenAt x0 x1 x2 x3 x4 x5 x6 x7 b) (fun k => x10 (ix2 v k)) (x11 (ix1 v)) := by
  rw [val_main_v53_apply, val_main_v50_apply, val_main_v52_apply, val_main_v51_apply]
  have e52 : idx_main_v51 (idx_main_v52 (ix2 b v)) = ix1 v :=
    funext fun a => Fin.ext (by match a with | ⟨0, _⟩ => rfl)
  rw [e52, Ideal.addf_def]
  unfold dense
  refine congrArg₂ (· + ·) (Finset.sum_congr rfl fun k _ => ?_) rfl
  have el : lidx_main_v50 (ix2 b v) k = ix2 b k :=
    funext fun a => Fin.ext (by match a with | ⟨0, _⟩ => rfl | ⟨1, _⟩ => rfl)
  rw [el, hidden_at, val_main_v49_apply]
  exact congrArg₂ (· * ·) rfl
    (congrArg x10 (funext fun a => Fin.ext (by match a with | ⟨0, _⟩ => rfl | ⟨1, _⟩ => rfl)))

/-- The two heads side by side, at an entry of the first half: the first head. -/
theorem headsAt_lo (b : Fin 65536) (v : Fin 64) (h : v.val < 32) :
    headsAt x0 x1 x2 x3 x4 x5 x6 x7 x8 x9 x10 x11 b v
      = dense (hiddenAt x0 x1 x2 x3 x4 x5 x6 x7 b) (fun k => x8 (ix2 (⟨v.val, h⟩ : Fin 32) k)) (x9 (ix1 (⟨v.val, h⟩ : Fin 32))) := by
  unfold headsAt stackedWeight stackedBias
  simp only [dif_pos h]

/-- The two heads side by side, at an entry of the second half: the second head. -/
theorem headsAt_hi (b : Fin 65536) (v : Fin 64) (h : ¬ v.val < 32) :
    headsAt x0 x1 x2 x3 x4 x5 x6 x7 x8 x9 x10 x11 b v
      = dense (hiddenAt x0 x1 x2 x3 x4 x5 x6 x7 b)
          (fun k => x10 (ix2 (⟨v.val - 32, by have := v.isLt; omega⟩ : Fin 32) k))
          (x11 (ix1 (⟨v.val - 32, by have := v.isLt; omega⟩ : Fin 32))) := by
  unfold headsAt stackedWeight stackedBias
  simp only [dif_neg h]

/-- The interleaved heads at position `n = 32·p + q` of the row-major order: head `(n / 32) mod 2` of batch row `n / 64`
    at entry `n mod 32`, which is entry `n mod 64` of the two heads side by side. -/
theorem heads_at (p : Fin 131072) (q : Fin 32) :
    val_main_v57 (F := Ideal) x0 x1 x2 x3 x4 x5 x6 x7 x8 x9 x10 x11 (ix2 p q)
      = headsOut x0 x1 x2 x3 x4 x5 x6 x7 x8 x9 x10 x11 (ix2 p q) := by
  have hp : p.val < 131072 := p.isLt
  have hq : q.val < 32 := q.isLt
  have hb : (p.val * 32 + q.val) / 64 < 65536 := by omega
  have hv : (p.val * 32 + q.val) % 32 < 32 := by omega
  have hw : (p.val * 32 + q.val) % 64 < 64 := by omega
  show _ = headsAt x0 x1 x2 x3 x4 x5 x6 x7 x8 x9 x10 x11 (⟨(p.val * 32 + q.val) / 64, hb⟩ : Fin 65536)
    (⟨(p.val * 32 + q.val) % 64, hw⟩ : Fin 64)
  rw [val_main_v57_apply]
  unfold val_main_v56
  by_cases hpar : (p.val * 32 + q.val) / 32 % 2 = 0
  · have hlo : (p.val * 32 + q.val) % 64 < 32 := by omega
    rw [concatenate_pair_apply_left (s₁ := S65536x1x32) (s₂ := S65536x1x32) (1 : Fin S65536x2x32.rank) _ _ _
      (idx_main_v57 (ix2 p q)) rfl
      (ix3 (⟨(p.val * 32 + q.val) / 64, hb⟩ : Fin 65536) (⟨0, Nat.one_pos⟩ : Fin 1) (⟨(p.val * 32 + q.val) % 32, hv⟩ : Fin 32))
      (fun c => by
        match c with
        | ⟨0, _⟩ => rfl
        | ⟨1, _⟩ => exact hpar.symm
        | ⟨2, _⟩ => rfl)]
    rw [val_main_v54_apply]
    have e54 : idx_main_v54 (ix3 (⟨(p.val * 32 + q.val) / 64, hb⟩ : Fin 65536) (⟨0, Nat.one_pos⟩ : Fin 1)
        (⟨(p.val * 32 + q.val) % 32, hv⟩ : Fin 32))
        = ix2 (⟨(p.val * 32 + q.val) / 64, hb⟩ : Fin 65536) (⟨(p.val * 32 + q.val) % 32, hv⟩ : Fin 32) :=
      funext fun a => Fin.ext (by match a with | ⟨0, _⟩ => rfl | ⟨1, _⟩ => rfl)
    rw [e54, head1_at, headsAt_lo _ _ _ _ _ _ _ _ _ _ _ _ _ _ hlo]
    have ev : (⟨(p.val * 32 + q.val) % 32, hv⟩ : Fin 32) = ⟨(p.val * 32 + q.val) % 64, hlo⟩ := Fin.ext (by show (p.val * 32 + q.val) % 32 = (p.val * 32 + q.val) % 64; omega)
    rw [ev]
  · have hhi : ¬ (p.val * 32 + q.val) % 64 < 32 := by omega
    have hpar1 : (p.val * 32 + q.val) / 32 % 2 = 1 := by omega
    rw [concatenate_pair_apply_right (s₁ := S65536x1x32) (s₂ := S65536x1x32) (1 : Fin S65536x2x32.rank) _ _ _
      (idx_main_v57 (ix2 p q)) rfl rfl
      (ix3 (⟨(p.val * 32 + q.val) / 64, hb⟩ : Fin 65536) (⟨0, Nat.one_pos⟩ : Fin 1) (⟨(p.val * 32 + q.val) % 32, hv⟩ : Fin 32))
      (fun c hc => by
        match c, hc with
        | ⟨0, _⟩, _ => rfl
        | ⟨1, _⟩, hc => exact absurd rfl hc
        | ⟨2, _⟩, _ => rfl)
      (by show 0 + 1 = (p.val * 32 + q.val) / 32 % 2; omega)]
    rw [val_main_v55_apply]
    have e55 : idx_main_v55 (ix3 (⟨(p.val * 32 + q.val) / 64, hb⟩ : Fin 65536) (⟨0, Nat.one_pos⟩ : Fin 1)
        (⟨(p.val * 32 + q.val) % 32, hv⟩ : Fin 32))
        = ix2 (⟨(p.val * 32 + q.val) / 64, hb⟩ : Fin 65536) (⟨(p.val * 32 + q.val) % 32, hv⟩ : Fin 32) :=
      funext fun a => Fin.ext (by match a with | ⟨0, _⟩ => rfl | ⟨1, _⟩ => rfl)
    rw [e55, head2_at, headsAt_hi _ _ _ _ _ _ _ _ _ _ _ _ _ _ hhi]
    have ev : (⟨(p.val * 32 + q.val) % 32, hv⟩ : Fin 32)
        = ⟨(p.val * 32 + q.val) % 64 - 32, by omega⟩ := Fin.ext (by show (p.val * 32 + q.val) % 32 = (p.val * 32 + q.val) % 64 - 32; omega)
    rw [ev]

/-- The reference's second result is the specification's head values. -/
theorem heads_eq :
    Cert.ReferenceIdeal.Read.val_main_v57 (F := Ideal) x0 x1 x2 x3 x4 x5 x6 x7 x8 x9 x10 x11
      = Cert.Gru.headsOut x0 x1 x2 x3 x4 x5 x6 x7 x8 x9 x10 x11 := by
  funext i
  obtain ⟨p, q, rfl⟩ : ∃ (p : Fin 131072) (q : Fin 32), i = ix2 p q := ⟨i 0, i 1, eq_ix2 i⟩
  exact heads_at x0 x1 x2 x3 x4 x5 x6 x7 x8 x9 x10 x11 p q

end Cert.Gru.Reference

end
-- ==== Proof.LibPlainProduct.lean ====
/-
  A block product of an a × K by a K × b array into the zero accumulator, one axis contracted, read at the entry
  (p, u) on the extended reals: the finite sum over k of lhs (p, k) · rhs (k, u).  The dimension record enters only
  through four facts about where it sends an output index and a contraction index; nothing here knows a program.
-/
import Idealize.ShloMosaic.Lib.ValueIdx
import Idealize.ShloMosaic.PureOps.Ideal.Laws

noncomputable section

open scoped BigOperators

namespace Cert.PlainProduct

open Idealize.ShloMosaic Idealize.ShloMosaic.ValueIdx

/-- With rows of the left operand following the output's rows, columns of the right operand following the output's
    columns, and the one contracted coordinate running along the left operand's columns and the right operand's
    rows, the product's entry (p, u) is the sum over that coordinate of the operands' products. -/
theorem matmul_zero_apply {a K b : ℕ} (D : DotDims ⟨2, ![a, K]⟩ ⟨2, ![K, b]⟩ ⟨2, ![a, b]⟩) (prec : Option ContractPrecision)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (lhs : FVec Ideal ⟨2, ![a, K]⟩ .f32) (rhs : FVec Ideal ⟨2, ![K, b]⟩ .f32) (p : Fin a) (u : Fin b) :
    FloatOps.matmul D prec lhs rhs (constant ⟨2, ![a, b]⟩ .f32 0x00000000#32) (ix2 p u)
      = ∑ k : Fin K, lhs (ix2 p k) * rhs (ix2 k u) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p u) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p u) ((contrEquiv1 D K hr hs).symm k) = ix2 k u := funext fun ax => Fin.ext (by
    match ax with
    | ⟨0, _⟩ => exact (hr0 _ _).trans hk
    | ⟨1, _⟩ => exact hr1 _ _)
  rw [el, er]

end Cert.PlainProduct

end
-- ==== Proof.LibRowDense.lean ====
/-
  Two readings at an entry, on the extended reals, that a dense layer computed block by block needs.  Nothing here knows
  a program.

  • A block product of an a × K by a K × b block into the zero accumulator, one axis contracted, at (p, u), is the sum
    over k of lhs (p, k) · rhs (k, u) — whatever float formats the two operands are typed at: on the extended reals
    every format is the same carrier, so a product of sixteen-bit-typed operands is the same sum.
  • A bias vector [n], viewed as one row [1, n] and repeated down a rows, reads at (p, g) its entry g.
-/
import proofs.«105232_j18193481466268_2_alg».proof.Proof.LibPlainProduct
import Idealize.ShloMosaic.Lib.Pipeline.Value
import Idealize.ShloMosaic.Lib.ValueLayout

noncomputable section

open scoped BigOperators

namespace Cert.RowDense

open Idealize.ShloMosaic Idealize.ShloMosaic.ValueIdx

/-- With rows of the left operand following the output's rows, columns of the right operand following the output's
    columns, and the one contracted coordinate running along the left operand's columns and the right operand's rows
    (the four facts about the dimension record), the product into the zero accumulator read at (p, u) is the sum over
    that coordinate of the operands' products, for operands typed at any two float formats. -/
theorem product_apply {a K b : ℕ} (D : DotDims ⟨2, ![a, K]⟩ ⟨2, ![K, b]⟩ ⟨2, ![a, b]⟩) (prec : Option ContractPrecision)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    {φ₁ φ₂ : FTy} (lhs : FVec Ideal ⟨2, ![a, K]⟩ φ₁) (rhs : FVec Ideal ⟨2, ![K, b]⟩ φ₂) (p : Fin a) (u : Fin b) :
    matmul D prec lhs rhs (constant ⟨2, ![a, b]⟩ .f32 0x00000000#32) (ix2 p u)
      = ∑ k : Fin K, lhs (ix2 p k) * rhs (ix2 k u) :=
  Cert.PlainProduct.matmul_zero_apply D prec hr hs hl0 hl1 hr0 hr1 lhs rhs p u

/-- A bias `[n]` viewed as one row `[1, n]` and repeated down `a` rows reads, at (p, g), its entry `g`. -/
theorem biasRow_apply {α : Type} {a n : ℕ} (v : (⟨1, ![n]⟩ : Shape).Idx → α) (hc : (⟨1, ![n]⟩ : Shape).ShapeCasts ⟨2, ![1, n]⟩)
    (hb : (⟨2, ![1, n]⟩ : Shape).Broadcasts ⟨2, ![a, n]⟩) (p : Fin a) (g : Fin n) :
    broadcastTo ⟨2, ![a, n]⟩ (shapeCast ⟨2, ![1, n]⟩ v hc) hb (ix2 p g) = v (ix1 g) := by
  rw [broadcastTo_1b_ab_apply, shapeCast_a_1a_apply]

end Cert.RowDense

end
-- ==== Proof.BodyValue.lean ====
/-
  What the kernel body computes from the blocks it loads, read at one entry, on the extended reals.

  A block is 512 batch rows.  From the input block `x` (512 × 256), the old-state block `h` (512 × 512), the resident
  transposed weights `w1` (256 × 512), `wih`, `whh` (512 × 1536), `w2` (512 × 64) and the biases, the body stores
    • into the new-state block, at (p, u):  the gated recurrent unit's new state of row p  (`Cert.Gru.rowState`), and
    • into the head block, at (p, v):  Σₖ (new state of row p)(k) · w2(k, v) + b2(v).
  Each block product into the zero accumulator is the finite sum over its contracted coordinate; a change of float
  format is the identity; a bias `[n]` viewed as `[1, n]` and repeated down the rows reads its entry at the column; the
  three gate bands are the column ranges [0, 512), [512, 1024), [1024, 1536) of the 512 × 1536 pre-activations.
-/
import proofs.«105232_j18193481466268_2_alg».proof.Proof.Spec
import proofs.«105232_j18193481466268_2_alg».proof.Proof.LibRowDense
import proofs.«105232_j18193481466268_2_alg».proof.Proof.Gen.KernelIdeal.Skeleton
import Idealize.ShloMosaic.Lib.Pipeline.Value
import Idealize.ShloMosaic.Lib.ValueLayout

noncomputable section

open scoped BigOperators

namespace Cert.Gru.Body

open Cert.KernelIdeal Cert.KernelIdeal.Gen Idealize.ShloMosaic Idealize.ShloMosaic.ValueIdx Cert.RowDense

/-! ## The three block products -/

local notation "D1" => dot_S512x256_S256x512_S512x512_1_0_0_1_n_n
local notation "D2" => dot_S512x512_S512x1536_S512x1536_1_0_0_1_n_n
local notation "D3" => dot_S512x512_S512x64_S512x64_1_0_0_1_n_n

theorem d1_l0 (j : S512x512.Idx) (q : DotDims.contr D1 |>.Idx) : (DotDims.lhsIdx D1 j q 0).val = (j 0).val := by
  unfold DotDims.lhsIdx
  rw [dif_neg (show ¬(0 : Fin S512x256.rank) ∈ DotDims.lhsBatch D1 by decide), dif_pos (show (0 : Fin S512x256.rank) ∈ DotDims.lhsNonContracting D1 by decide)]
  rfl
theorem d1_r1 (j : S512x512.Idx) (q : DotDims.contr D1 |>.Idx) : (DotDims.rhsIdx D1 j q 1).val = (j 1).val := by
  unfold DotDims.rhsIdx
  rw [dif_neg (show ¬(1 : Fin S256x512.rank) ∈ DotDims.rhsBatch D1 by decide), dif_pos (show (1 : Fin S256x512.rank) ∈ DotDims.rhsNonContracting D1 by decide)]
  rfl
theorem d2_l0 (j : S512x1536.Idx) (q : DotDims.contr D2 |>.Idx) : (DotDims.lhsIdx D2 j q 0).val = (j 0).val := by
  unfold DotDims.lhsIdx
  rw [dif_neg (show ¬(0 : Fin S512x512.rank) ∈ DotDims.lhsBatch D2 by decide), dif_pos (show (0 : Fin S512x512.rank) ∈ DotDims.lhsNonContracting D2 by decide)]
  rfl
theorem d2_r1 (j : S512x1536.Idx) (q : DotDims.contr D2 |>.Idx) : (DotDims.rhsIdx D2 j q 1).val = (j 1).val := by
  unfold DotDims.rhsIdx
  rw [dif_neg (show ¬(1 : Fin S512x1536.rank) ∈ DotDims.rhsBatch D2 by decide), dif_pos (show (1 : Fin S512x1536.rank) ∈ DotDims.rhsNonContracting D2 by decide)]
  rfl
theorem d3_l0 (j : S512x64.Idx) (q : DotDims.contr D3 |>.Idx) : (DotDims.lhsIdx D3 j q 0).val = (j 0).val := by
  unfold DotDims.lhsIdx
  rw [dif_neg (show ¬(0 : Fin S512x512.rank) ∈ DotDims.lhsBatch D3 by decide), dif_pos (show (0 : Fin S512x512.rank) ∈ DotDims.lhsNonContracting D3 by decide)]
  rfl
theorem d3_r1 (j : S512x64.Idx) (q : DotDims.contr D3 |>.Idx) : (DotDims.rhsIdx D3 j q 1).val = (j 1).val := by
  unfold DotDims.rhsIdx
  rw [dif_neg (show ¬(1 : Fin S512x64.rank) ∈ DotDims.rhsBatch D3 by decide), dif_pos (show (1 : Fin S512x64.rank) ∈ DotDims.rhsNonContracting D3 by decide)]
  rfl

/-- The input layer's product, 512 × 256 by 256 × 512. -/
theorem product1 {φ₁ φ₂ : FTy} (l : FVec Ideal S512x256 φ₁) (r : FVec Ideal S256x512 φ₂) (p j : Fin 512) :
    matmul D1 none l r (constant S512x512 .f32 0x00000000#32) (ix2 p j) = ∑ k : Fin 256, l (ix2 p k) * r (ix2 k j) :=
  product_apply D1 none rfl rfl d1_l0 (fun j q => DotDims.lhsIdx_val_of_single D1 rfl j q)
    (fun j q => DotDims.rhsIdx_val_of_single D1 rfl j q) d1_r1 l r p j

/-- A gate product, 512 × 512 by 512 × 1536. -/
theorem product2 {φ₁ φ₂ : FTy} (l : FVec Ideal S512x512 φ₁) (r : FVec Ideal S512x1536 φ₂) (p : Fin 512) (g : Fin 1536) :
    matmul D2 none l r (constant S512x1536 .f32 0x00000000#32) (ix2 p g) = ∑ k : Fin 512, l (ix2 p k) * r (ix2 k g) :=
  product_apply D2 none rfl rfl d2_l0 (fun j q => DotDims.lhsIdx_val_of_single D2 rfl j q)
    (fun j q => DotDims.rhsIdx_val_of_single D2 rfl j q) d2_r1 l r p g

/-- The heads' product, 512 × 512 by 512 × 64. -/
theorem product3 {φ₁ φ₂ : FTy} (l : FVec Ideal S512x512 φ₁) (r : FVec Ideal S512x64 φ₂) (p : Fin 512) (v : Fin 64) :
    matmul D3 none l r (constant S512x64 .f32 0x00000000#32) (ix2 p v) = ∑ k : Fin 512, l (ix2 p k) * r (ix2 k v) :=
  product_apply D3 none rfl rfl d3_l0 (fun j q => DotDims.lhsIdx_val_of_single D3 rfl j q)
    (fun j q => DotDims.rhsIdx_val_of_single D3 rfl j q) d3_r1 l r p v

/-! ## The body's values at an entry -/

section
variable (v0 : Vec Ideal S512x256 .f32) (v2 : Vec Ideal S256x512 .bf16) (v5 : Vec Ideal S512 .f32)
  (v12 : Vec Ideal S512x512 .f32) (v14 v16 : Vec Ideal S512x1536 .bf16) (v19 v24 : Vec Ideal S1536 .f32)
  (v48 : Vec Ideal S512x64 .bf16) (v51 : Vec Ideal S64 .f32)

/-- The rectified input layer of row `p` of the block, entry `j`. -/
theorem input_apply (p j : Fin 512) :
    (maximumf (addf (matmul D1 none (truncf .bf16 v0 bitsLt_bf16_f32 : FVec Ideal S512x256 .bf16)
          (shapeCast S256x512 v2 shapeCasts_S256x512_S256x512 : FVec Ideal S256x512 .bf16) (constant S512x512 .f32 0x00000000#32))
        (broadcastTo S512x512 (shapeCast S1x512 v5 shapeCasts_S512_S1x512 : FVec Ideal S1x512 .f32) broadcasts_S1x512_S512x512))
      (broadcast S512x512 (Scalar.ofBits .f32 0x00000000#32)) : FVec Ideal S512x512 .f32) (ix2 p j)
      = inputLayer (fun k => v0 (ix2 p k)) (fun k j => v2 (ix2 k j)) (fun j => v5 (ix1 j)) j := by
  show max (matmul D1 none _ _ _ (ix2 p j) + broadcastTo S512x512 _ _ (ix2 p j)) (Ideal.ofBits .f32 0x00000000#32) = _
  rw [product1, biasRow_apply, shapeCast_self]
  rfl

/-- The input-side gate pre-activation of row `p`, gate row `g`. -/
theorem pay3_apply (p : Fin 512) (g : Fin 1536) :
    k0_pay3 v0 v2 v5 v14 v19 (ix2 p g)
      = dense (inputLayer (fun k => v0 (ix2 p k)) (fun k j => v2 (ix2 k j)) (fun j => v5 (ix1 j))) (fun k => v14 (ix2 k g)) (v19 (ix1 g)) := by
  unfold k0_pay3
  show matmul D2 none _ _ _ (ix2 p g) + broadcastTo S512x1536 _ _ (ix2 p g) = _
  rw [product2, biasRow_apply]
  unfold dense
  refine congrArg (· + v19 (ix1 g)) (Finset.sum_congr rfl fun k _ => ?_)
  exact congrArg₂ (· * ·) (input_apply v0 v2 v5 p k) (congrFun (shapeCast_self _ _) _)

/-- The state-side gate pre-activation of row `p`, gate row `g`. -/
theorem pay4_apply (p : Fin 512) (g : Fin 1536) :
    k0_pay4 v12 v16 v24 (ix2 p g) = dense (fun k => v12 (ix2 p k)) (fun k => v16 (ix2 k g)) (v24 (ix1 g)) := by
  unfold k0_pay4
  show matmul D2 none _ _ _ (ix2 p g) + broadcastTo S512x1536 _ _ (ix2 p g) = _
  rw [product2, biasRow_apply, shapeCast_self]
  rfl

/-- A gate band: columns `o … o + 511` of a 512 × 1536 array, at (p, u), is the array at gate row `o + u`. -/
theorem band_apply (o : ℕ) (ho : o + 512 ≤ 1536) (X : S512x1536.Idx → EReal) (h : S512x1536.Slices ![0, o] S512x512) (p u : Fin 512) :
    extractStridedSlice S512x512 ![0, o] X h (ix2 p u) = X (ix2 p (gateRow o ho u)) :=
  slice2_axis1_apply o X h p u (gateRow o ho u) rfl

/-- The update gate of row `p`, entry `u`. -/
theorem pay5_apply (p u : Fin 512) :
    k0_pay5 v0 v2 v5 v12 v14 v16 v19 v24 (ix2 p u)
      = Ideal.logistic (k0_pay3 v0 v2 v5 v14 v19 (ix2 p (gateRow 512 (by omega) u)) + k0_pay4 v12 v16 v24 (ix2 p (gateRow 512 (by omega) u))) := by
  unfold k0_pay5
  show Ideal.logistic (extractStridedSlice S512x512 ![0, 512] (k0_pay3 v0 v2 v5 v14 v19) slices_S512x1536_o0_512_S512x512 (ix2 p u)
      + extractStridedSlice S512x512 ![0, 512] (k0_pay4 v12 v16 v24) slices_S512x1536_o0_512_S512x512 (ix2 p u)) = _
  rw [band_apply 512 (by omega), band_apply 512 (by omega)]

/-- The candidate state of row `p`, entry `u`. -/
theorem pay6_apply (p u : Fin 512) :
    k0_pay6 v0 v2 v5 v12 v14 v16 v19 v24 (ix2 p u)
      = Ideal.tanh (k0_pay3 v0 v2 v5 v14 v19 (ix2 p (gateRow 1024 (by omega) u))
          + Ideal.logistic (k0_pay3 v0 v2 v5 v14 v19 (ix2 p (gateRow 0 (by omega) u)) + k0_pay4 v12 v16 v24 (ix2 p (gateRow 0 (by omega) u)))
            * k0_pay4 v12 v16 v24 (ix2 p (gateRow 1024 (by omega) u))) := by
  unfold k0_pay6
  show Ideal.tanh (extractStridedSlice S512x512 ![0, 1024] (k0_pay3 v0 v2 v5 v14 v19) slices_S512x1536_o0_1024_S512x512 (ix2 p u)
      + Ideal.logistic (extractStridedSlice S512x512 ![0, 0] (k0_pay3 v0 v2 v5 v14 v19) slices_S512x1536_o0_0_S512x512 (ix2 p u)
          + extractStridedSlice S512x512 ![0, 0] (k0_pay4 v12 v16 v24) slices_S512x1536_o0_0_S512x512 (ix2 p u))
        * extractStridedSlice S512x512 ![0, 1024] (k0_pay4 v12 v16 v24) slices_S512x1536_o0_1024_S512x512 (ix2 p u)) = _
  rw [band_apply 1024 (by omega), band_apply 0 (by omega), band_apply 0 (by omega), band_apply 1024 (by omega)]

/-- WHAT THE BODY STORES INTO THE NEW-STATE BLOCK at (p, u): the recurrent unit's new state of row `p`. -/
theorem state_apply (p u : Fin 512) :
    k0_pay1 v12 (k0_pay5 v0 v2 v5 v12 v14 v16 v19 v24) (k0_pay6 v0 v2 v5 v12 v14 v16 v19 v24) (Scalar.ofBits .f32 0x3F800000#32) (ix2 p u)
      = rowState (fun k => v0 (ix2 p k)) (fun k => v12 (ix2 p k)) (fun k j => v2 (ix2 k j)) (fun j => v5 (ix1 j))
          (fun k g => v14 (ix2 k g)) (fun k g => v16 (ix2 k g)) (fun g => v19 (ix1 g)) (fun g => v24 (ix1 g)) u := by
  unfold k0_pay1
  show (Ideal.ofBits .f32 0x3F800000#32 - k0_pay5 v0 v2 v5 v12 v14 v16 v19 v24 (ix2 p u)) * k0_pay6 v0 v2 v5 v12 v14 v16 v19 v24 (ix2 p u)
      + k0_pay5 v0 v2 v5 v12 v14 v16 v19 v24 (ix2 p u) * v12 (ix2 p u) = _
  rw [pay5_apply, pay6_apply]
  simp only [pay3_apply, pay4_apply]
  rfl

/-- WHAT THE BODY STORES INTO THE HEAD BLOCK at (p, v): the inner product of row `p`'s new state with column `v` of the
    stacked transposed head weights, plus the stacked bias. -/
theorem heads_apply (z n : FVec Ideal S512x512 .f32) (one : Ideal .f32) (p : Fin 512) (v : Fin 64) :
    k0_pay2 v12 z n one v48 v51 (ix2 p v)
      = dense (fun k => k0_pay1 v12 z n one (ix2 p k)) (fun k => v48 (ix2 k v)) (v51 (ix1 v)) := by
  unfold k0_pay2
  show matmul D3 none _ _ _ (ix2 p v) + broadcastTo S512x64 _ _ (ix2 p v) = _
  rw [product3, biasRow_apply, shapeCast_self, shapeCast_self]
  rfl

end

end Cert.Gru.Body

end
-- ==== Proof.RegionValue.lean ====
/-
  From blocks to arrays: what the two result arrays hold after the region, as functions of the argument arrays.

  The grid has 128 points; point t handles batch rows 512·t … 512·t + 511.  Its input block is those rows of the input
  array, its old-state block those rows of the state array; the weights and biases are resident (one block, the whole
  array) and were prepared by the host before the region: each weight matrix transposed (so entry (k, j) of what the
  region finds is entry (j, k) of the argument), the two heads' matrices stacked before transposing, their biases
  stacked.  What point t writes back is therefore rows 512·t … of the two whole-array functions of the specification,
  and since every row lies in exactly one point's block, the arrays end holding those functions.  After the region the
  host re-reads the 65536 × 64 head array row-major as 131072 × 32.
-/
import proofs.«105232_j18193481466268_2_alg».proof.Proof.BodyValue
import proofs.«105232_j18193481466268_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

open Idealize.ShloMosaic Idealize.ShloMosaic.TcCoe Idealize.SL.Sem
open Idealize.ShloMosaic.Pipeline (Dat)

namespace Cert.Gru.Region

open Cert.KernelIdeal Cert.KernelIdeal.Gen Idealize.ShloMosaic.ValueIdx Idealize.ShloMosaic.StableHlo

variable (m : (ℓ : Loc nD τ sig) → Buf (Elt Ideal) ℓ) (ρ : Dev nD → PrngReg)

/-! ## The weights as the region finds them -/

/-- The input layer's weight, transposed by the host: entry (k, j) is the argument's entry (j, k). -/
theorem found_w1 (c : Dev nD) (k : Fin 256) (j : Fin 512) :
    (V m c main_v1 : S256x512.Idx → EReal) (ix2 k j) = (m ((c : Thread nD τ).loc main_arg2) : S512x256.Idx → EReal) (ix2 j k) := by
  have e : (V m c main_v1 : S256x512.Idx → EReal)
      = (truncf (F := Ideal) .bf16 (transpose S256x512 [1, 0] (m ((c : Thread nD τ).loc main_arg2) : S512x256.Idx → EReal) transposes_S512x256_S256x512_1_0) bitsLt_bf16_f32 : S256x512.Idx → EReal) := by
    show StableHlo.after hostOps0 (fun b => m (c, b)) (Proc.devRef .tc main_v1) = _
    after_results
  rw [e]
  exact transpose_apply [1, 0] _ transposes_S512x256_S256x512_1_0 (ix2 k j) (ix2 j k) (fun b => match b with
    | ⟨0, _⟩ => rfl
    | ⟨1, _⟩ => rfl)

/-- The input-side gate weight, transposed by the host. -/
theorem found_wih (c : Dev nD) (k : Fin 512) (g : Fin 1536) :
    (V m c main_v3 : S512x1536.Idx → EReal) (ix2 k g) = (m ((c : Thread nD τ).loc main_arg4) : S1536x512.Idx → EReal) (ix2 g k) := by
  have e : (V m c main_v3 : S512x1536.Idx → EReal)
      = (truncf (F := Ideal) .bf16 (transpose S512x1536 [1, 0] (m ((c : Thread nD τ).loc main_arg4) : S1536x512.Idx → EReal) transposes_S1536x512_S512x1536_1_0) bitsLt_bf16_f32 : S512x1536.Idx → EReal) := by
    show StableHlo.after hostOps0 (fun b => m (c, b)) (Proc.devRef .tc main_v3) = _
    after_results
  rw [e]
  exact transpose_apply [1, 0] _ transposes_S1536x512_S512x1536_1_0 (ix2 k g) (ix2 g k) (fun b => match b with
    | ⟨0, _⟩ => rfl
    | ⟨1, _⟩ => rfl)

/-- The state-side gate weight, transposed by the host. -/
theorem found_whh (c : Dev nD) (k : Fin 512) (g : Fin 1536) :
    (V m c main_v5 : S512x1536.Idx → EReal) (ix2 k g) = (m ((c : Thread nD τ).loc main_arg5) : S1536x512.Idx → EReal) (ix2 g k) := by
  have e : (V m c main_v5 : S512x1536.Idx → EReal)
      = (truncf (F := Ideal) .bf16 (transpose S512x1536 [1, 0] (m ((c : Thread nD τ).loc main_arg5) : S1536x512.Idx → EReal) transposes_S1536x512_S512x1536_1_0) bitsLt_bf16_f32 : S512x1536.Idx → EReal) := by
    show StableHlo.after hostOps0 (fun b => m (c, b)) (Proc.devRef .tc main_v5) = _
    after_results
  rw [e]
  exact transpose_apply [1, 0] _ transposes_S1536x512_S512x1536_1_0 (ix2 k g) (ix2 g k) (fun b => match b with
    | ⟨0, _⟩ => rfl
    | ⟨1, _⟩ => rfl)

/-- The two heads' weights, stacked and then transposed by the host: entry (k, v) is row `v` of the stack at `k`. -/
theorem found_w2 (c : Dev nD) (k : Fin 512) (v : Fin 64) :
    (V m c main_v8 : S512x64.Idx → EReal) (ix2 k v)
      = stackedWeight (m ((c : Thread nD τ).loc main_arg8)) (m ((c : Thread nD τ).loc main_arg10)) k v := by
  have e : (V m c main_v8 : S512x64.Idx → EReal)
      = (truncf (F := Ideal) .bf16 (transpose S512x64 [1, 0]
          (concatenate S64x512 0 [⟨S32x512, (m ((c : Thread nD τ).loc main_arg8) : S32x512.Idx → EReal)⟩,
            ⟨S32x512, (m ((c : Thread nD τ).loc main_arg10) : S32x512.Idx → EReal)⟩] concatenates_S32x512_S32x512_S64x512_d0)
          transposes_S64x512_S512x64_1_0) bitsLt_bf16_f32 : S512x64.Idx → EReal) := by
    show StableHlo.after hostOps0 (fun b => m (c, b)) (Proc.devRef .tc main_v8) = _
    after_results
  rw [e]
  refine Eq.trans (b := (concatenate S64x512 0 [⟨S32x512, (m ((c : Thread nD τ).loc main_arg8) : S32x512.Idx → EReal)⟩,
      ⟨S32x512, (m ((c : Thread nD τ).loc main_arg10) : S32x512.Idx → EReal)⟩] concatenates_S32x512_S32x512_S64x512_d0 : S64x512.Idx → EReal) (ix2 v k))
    (transpose_apply [1, 0] (concatenate S64x512 0 [⟨S32x512, (m ((c : Thread nD τ).loc main_arg8) : S32x512.Idx → EReal)⟩,
      ⟨S32x512, (m ((c : Thread nD τ).loc main_arg10) : S32x512.Idx → EReal)⟩] concatenates_S32x512_S32x512_S64x512_d0 : S64x512.Idx → EReal)
      transposes_S64x512_S512x64_1_0 (ix2 k v) (ix2 v k) (fun b => match b with
      | ⟨0, _⟩ => rfl
      | ⟨1, _⟩ => rfl)) ?_
  unfold stackedWeight
  by_cases h : v.val < 32
  · rw [dif_pos h]
    exact concatenate_pair_apply_left (0 : Fin S64x512.rank) _ _ concatenates_S32x512_S32x512_S64x512_d0 (ix2 v k) rfl
      (ix2 ⟨v.val, h⟩ k) (fun b => match b with
        | ⟨0, _⟩ => rfl
        | ⟨1, _⟩ => rfl)
  · rw [dif_neg h]
    exact concatenate_pair_apply_right (0 : Fin S64x512.rank) _ _ concatenates_S32x512_S32x512_S64x512_d0 (ix2 v k) rfl rfl
      (ix2 ⟨v.val - 32, by have := v.isLt; omega⟩ k) (fun b hb => match b, hb with
        | ⟨0, _⟩, hb => (hb rfl).elim
        | ⟨1, _⟩, _ => rfl)
      (by show v.val - 32 + 32 = v.val; omega)

/-- The two heads' biases, stacked by the host. -/
theorem found_b2 (c : Dev nD) (v : Fin 64) :
    (V m c main_v9 : S64.Idx → EReal) (ix1 v)
      = stackedBias (m ((c : Thread nD τ).loc main_arg9)) (m ((c : Thread nD τ).loc main_arg11)) v := by
  have e : (V m c main_v9 : S64.Idx → EReal)
      = (concatenate S64 0 [⟨S32, (m ((c : Thread nD τ).loc main_arg9) : S32.Idx → EReal)⟩,
            ⟨S32, (m ((c : Thread nD τ).loc main_arg11) : S32.Idx → EReal)⟩] concatenates_S32_S32_S64_d0 : S64.Idx → EReal) := by
    show StableHlo.after hostOps0 (fun b => m (c, b)) (Proc.devRef .tc main_v9) = _
    after_results
  rw [e]
  unfold stackedBias
  by_cases h : v.val < 32
  · rw [dif_pos h]
    exact concatenate_pair_apply_left (0 : Fin S64.rank) _ _ concatenates_S32_S32_S64_d0 (ix1 v) rfl
      (ix1 ⟨v.val, h⟩) (fun b => match b with
        | ⟨0, _⟩ => rfl)
  · rw [dif_neg h]
    exact concatenate_pair_apply_right (0 : Fin S64.rank) _ _ concatenates_S32_S32_S64_d0 (ix1 v) rfl rfl
      (ix1 ⟨v.val - 32, by have := v.isLt; omega⟩) (fun b hb => match b, hb with
        | ⟨0, _⟩, hb => (hb rfl).elim)
      (by show v.val - 32 + 32 = v.val; omega)

/-! ## The windows' blocks as rows of their arrays -/

/-- The printed index maps, decided over the 128 grid points: the two batch-blocked inputs and the two outputs are at
    block row `t`, column block 0; every resident operand is at block 0. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_10.index t (0 : Fin 2) = t.val ∧ win0_10.index t (1 : Fin 2) = 0
    ∧ win0_11.index t (0 : Fin 2) = t.val ∧ win0_11.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0 ∧ win0_7.index t (0 : Fin 1) = 0
    ∧ win0_8.index t (0 : Fin 2) = 0 ∧ win0_8.index t (1 : Fin 2) = 0
    ∧ win0_9.index t (0 : Fin 1) = 0 :=
  (by decide +kernel : ∀ t : Fin grid0.N, _)

/-- The input block at point `t`: row `p` of the block is row `512·t + p` of the input array. -/
theorem block_x (c : Dev nD) (t : Fin cfg0.N) (p : Fin 512) (k : Fin 256) (b : Fin 65536) (hb : b.val = t.val * 512 + p.val) :
    (iblk m c 0 t : Vec Ideal S512x256 .f32) (ix2 p k) = (m ((c : Thread nD τ).loc main_arg0) : S65536x256.Idx → EReal) (ix2 b k) := by
  obtain ⟨h0, h1, -⟩ := index_facts t
  unfold iblk
  rw [View.read_apply]
  show V m c main_arg0 _ = _
  rw [V_main_arg0]
  congr 1
  funext a
  apply Fin.ext
  match a with
  | ⟨0, _⟩ => show win0_0.index t (0 : Fin 2) * 512 + 1 * p.val = b.val; rw [h0, hb]; omega
  | ⟨1, _⟩ => show win0_0.index t (1 : Fin 2) * 256 + 1 * k.val = k.val; rw [h1]; omega

/-- The old-state block at point `t`: row `p` of the block is row `512·t + p` of the state array. -/
theorem block_h (c : Dev nD) (t : Fin cfg0.N) (p : Fin 512) (k : Fin 512) (b : Fin 65536) (hb : b.val = t.val * 512 + p.val) :
    (iblk m c 1 t : Vec Ideal S512x512 .f32) (ix2 p k) = (m ((c : Thread nD τ).loc main_arg1) : S65536x512.Idx → EReal) (ix2 b k) := by
  obtain ⟨-, -, h0, h1, -⟩ := index_facts t
  unfold iblk
  rw [View.read_apply]
  show V m c main_arg1 _ = _
  rw [V_main_arg1]
  congr 1
  funext a
  apply Fin.ext
  match a with
  | ⟨0, _⟩ => show win0_1.index t (0 : Fin 2) * 512 + 1 * p.val = b.val; rw [h0, hb]; omega
  | ⟨1, _⟩ => show win0_1.index t (1 : Fin 2) * 512 + 1 * k.val = k.val; rw [h1]; omega

/-- A resident operand's one block is its whole array: the input layer's transposed weight. -/
theorem block_w1 (c : Dev nD) (t : Fin cfg0.N) (k : Fin 256) (j : Fin 512) :
    (iblk m c 2 t : Vec Ideal S256x512 .bf16) (ix2 k j) = (V m c main_v1 : S256x512.Idx → EReal) (ix2 k j) := by
  obtain ⟨_, _, _, _, _, _, _, _, h0, h1, _⟩ := index_facts t
  unfold iblk
  rw [View.read_apply]
  show V m c main_v1 _ = _
  congr 1
  funext a
  apply Fin.ext
  match a with
  | ⟨0, _⟩ => show win0_2.index t (0 : Fin 2) * 256 + 1 * k.val = k.val; rw [h0]; omega
  | ⟨1, _⟩ => show win0_2.index t (1 : Fin 2) * 512 + 1 * j.val = j.val; rw [h1]; omega

/-- The input layer's bias. -/
theorem block_b1 (c : Dev nD) (t : Fin cfg0.N) (j : Fin 512) :
    (iblk m c 3 t : Vec Ideal S512 .f32) (ix1 j) = (m ((c : Thread nD τ).loc main_arg3) : S512.Idx → EReal) (ix1 j) := by
  obtain ⟨_, _, _, _, _, _, _, _, _, _, h0, _⟩ := index_facts t
  unfold iblk
  rw [View.read_apply]
  show V m c main_arg3 _ = _
  rw [V_main_arg3]
  congr 1
  funext a
  apply Fin.ext
  match a with
  | ⟨0, _⟩ => show win0_3.index t (0 : Fin 1) * 512 + 1 * j.val = j.val; rw [h0]; omega

/-- The input-side gate weight, transposed. -/
theorem block_wih (c : Dev nD) (t : Fin cfg0.N) (k : Fin 512) (g : Fin 1536) :
    (iblk m c 4 t : Vec Ideal S512x1536 .bf16) (ix2 k g) = (V m c main_v3 : S512x1536.Idx → EReal) (ix2 k g) := by
  obtain ⟨_, _, _, _, _, _, _, _, _, _, _, h0, h1, _⟩ := index_facts t
  unfold iblk
  rw [View.read_apply]
  show V m c main_v3 _ = _
  congr 1
  funext a
  apply Fin.ext
  match a with
  | ⟨0, _⟩ => show win0_4.index t (0 : Fin 2) * 512 + 1 * k.val = k.val; rw [h0]; omega
  | ⟨1, _⟩ => show win0_4.index t (1 : Fin 2) * 1536 + 1 * g.val = g.val; rw [h1]; omega

/-- The state-side gate weight, transposed. -/
theorem block_whh (c : Dev nD) (t : Fin cfg0.N) (k : Fin 512) (g : Fin 1536) :
    (iblk m c 5 t : Vec Ideal S512x1536 .bf16) (ix2 k g) = (V m c main_v5 : S512x1536.Idx → EReal) (ix2 k g) := by
  obtain ⟨_, _, _, _, _, _, _, _, _, _, _, _, _, h0, h1, _⟩ := index_facts t
  unfold iblk
  rw [View.read_apply]
  show V m c main_v5 _ = _
  congr 1
  funext a
  apply Fin.ext
  match a with
  | ⟨0, _⟩ => show win0_5.index t (0 : Fin 2) * 512 + 1 * k.val = k.val; rw [h0]; omega
  | ⟨1, _⟩ => show win0_5.index t (1 : Fin 2) * 1536 + 1 * g.val = g.val; rw [h1]; omega

/-- The input-side gate bias. -/
theorem block_bih (c : Dev nD) (t : Fin cfg0.N) (g : Fin 1536) :
    (iblk m c 6 t : Vec Ideal S1536 .f32) (ix1 g) = (m ((c : Thread nD τ).loc main_arg6) : S1536.Idx → EReal) (ix1 g) := by
  obtain ⟨_, _, _, _, _, _, _, _, _, _, _, _, _, _, _, h0, _⟩ := index_facts t
  unfold iblk
  rw [View.read_apply]
  show V m c main_arg6 _ = _
  rw [V_main_arg6]
  congr 1
  funext a
  apply Fin.ext
  match a with
  | ⟨0, _⟩ => show win0_6.index t (0 : Fin 1) * 1536 + 1 * g.val = g.val; rw [h0]; omega

/-- The state-side gate bias. -/
theorem block_bhh (c : Dev nD) (t : Fin cfg0.N) (g : Fin 1536) :
    (iblk m c 7 t : Vec Ideal S1536 .f32) (ix1 g) = (m ((c : Thread nD τ).loc main_arg7) : S1536.Idx → EReal) (ix1 g) := by
  obtain ⟨_, _, _, _, _, _, _, _, _, _, _, _, _, _, _, _, h0, _⟩ := index_facts t
  unfold iblk
  rw [View.read_apply]
  show V m c main_arg7 _ = _
  rw [V_main_arg7]
  congr 1
  funext a
  apply Fin.ext
  match a with
  | ⟨0, _⟩ => show win0_7.index t (0 : Fin 1) * 1536 + 1 * g.val = g.val; rw [h0]; omega

/-- The stacked head weights, transposed. -/
theorem block_w2 (c : Dev nD) (t : Fin cfg0.N) (k : Fin 512) (v : Fin 64) :
    (iblk m c 8 t : Vec Ideal S512x64 .bf16) (ix2 k v) = (V m c main_v8 : S512x64.Idx → EReal) (ix2 k v) := by
  obtain ⟨_, _, _, _, _, _, _, _, _, _, _, _, _, _, _, _, _, h0, h1, _⟩ := index_facts t
  unfold iblk
  rw [View.read_apply]
  show V m c main_v8 _ = _
  congr 1
  funext a
  apply Fin.ext
  match a with
  | ⟨0, _⟩ => show win0_8.index t (0 : Fin 2) * 512 + 1 * k.val = k.val; rw [h0]; omega
  | ⟨1, _⟩ => show win0_8.index t (1 : Fin 2) * 64 + 1 * v.val = v.val; rw [h1]; omega

/-- The stacked head biases. -/
theorem block_b2 (c : Dev nD) (t : Fin cfg0.N) (v : Fin 64) :
    (iblk m c 9 t : Vec Ideal S64 .f32) (ix1 v) = (V m c main_v9 : S64.Idx → EReal) (ix1 v) := by
  obtain ⟨_, _, _, _, _, _, _, _, _, _, _, _, _, _, _, _, _, _, _, h0⟩ := index_facts t
  unfold iblk
  rw [View.read_apply]
  show V m c main_v9 _ = _
  congr 1
  funext a
  apply Fin.ext
  match a with
  | ⟨0, _⟩ => show win0_9.index t (0 : Fin 1) * 64 + 1 * v.val = v.val; rw [h0]; omega

/-! ## What point `t` writes back, and the arrays after the region -/

theorem hz2 : (![0, 0] : Fin 2 → Nat) = fun _ => 0 := funext fun a => by fin_cases a <;> rfl
theorem hz1 : (![0] : Fin 1 → Nat) = fun _ => 0 := funext fun a => by fin_cases a <;> rfl

/-- Row `p` of the block at point `t` is batch row `512·t + p`. -/
def batchRow (t : Fin cfg0.N) (p : Fin 512) : Fin 65536 :=
  ⟨t.val * 512 + p.val, by have ht : t.val < 128 := lt_of_lt_of_eq t.isLt N_0; have := p.isLt; omega⟩

/-- The body's new state at (p, u) of point `t`'s blocks is the specification's new state of batch row `512·t + p`. -/
theorem state_rows (c : Dev nD) (t : Fin cfg0.N) (p u : Fin 512) :
    k0_pay1 (iblk m c 1 t)
        (k0_pay5 (iblk m c 0 t) (iblk m c 2 t) (iblk m c 3 t) (iblk m c 1 t) (iblk m c 4 t) (iblk m c 5 t) (iblk m c 6 t) (iblk m c 7 t))
        (k0_pay6 (iblk m c 0 t) (iblk m c 2 t) (iblk m c 3 t) (iblk m c 1 t) (iblk m c 4 t) (iblk m c 5 t) (iblk m c 6 t) (iblk m c 7 t))
        (Scalar.ofBits .f32 0x3F800000#32) (ix2 p u)
      = hiddenAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (batchRow t p) u := by
  refine (Cert.Gru.Body.state_apply (iblk m c 0 t) (iblk m c 2 t) (iblk m c 3 t) (iblk m c 1 t) (iblk m c 4 t) (iblk m c 5 t)
    (iblk m c 6 t) (iblk m c 7 t) p u).trans ?_
  unfold hiddenAt
  have e0 : (fun k => (iblk m c 0 t : Vec Ideal S512x256 .f32) (ix2 p k))
      = fun k => (m ((c : Thread nD τ).loc main_arg0) : S65536x256.Idx → EReal) (ix2 (batchRow t p) k) :=
    funext fun k => block_x m c t p k (batchRow t p) rfl
  have e1 : (fun k => (iblk m c 1 t : Vec Ideal S512x512 .f32) (ix2 p k))
      = fun k => (m ((c : Thread nD τ).loc main_arg1) : S65536x512.Idx → EReal) (ix2 (batchRow t p) k) :=
    funext fun k => block_h m c t p k (batchRow t p) rfl
  have e2 : (fun k j => (iblk m c 2 t : Vec Ideal S256x512 .bf16) (ix2 k j))
      = fun k j => (m ((c : Thread nD τ).loc main_arg2) : S512x256.Idx → EReal) (ix2 j k) :=
    funext fun k => funext fun j => (block_w1 m c t k j).trans (found_w1 m c k j)
  have e3 : (fun j => (iblk m c 3 t : Vec Ideal S512 .f32) (ix1 j))
      = fun j => (m ((c : Thread nD τ).loc main_arg3) : S512.Idx → EReal) (ix1 j) :=
    funext fun j => block_b1 m c t j
  have e4 : (fun k g => (iblk m c 4 t : Vec Ideal S512x1536 .bf16) (ix2 k g))
      = fun k g => (m ((c : Thread nD τ).loc main_arg4) : S1536x512.Idx → EReal) (ix2 g k) :=
    funext fun k => funext fun g => (block_wih m c t k g).trans (found_wih m c k g)
  have e5 : (fun k g => (iblk m c 5 t : Vec Ideal S512x1536 .bf16) (ix2 k g))
      = fun k g => (m ((c : Thread nD τ).loc main_arg5) : S1536x512.Idx → EReal) (ix2 g k) :=
    funext fun k => funext fun g => (block_whh m c t k g).trans (found_whh m c k g)
  have e6 : (fun g => (iblk m c 6 t : Vec Ideal S1536 .f32) (ix1 g))
      = fun g => (m ((c : Thread nD τ).loc main_arg6) : S1536.Idx → EReal) (ix1 g) :=
    funext fun g => block_bih m c t g
  have e7 : (fun g => (iblk m c 7 t : Vec Ideal S1536 .f32) (ix1 g))
      = fun g => (m ((c : Thread nD τ).loc main_arg7) : S1536.Idx → EReal) (ix1 g) :=
    funext fun g => block_bhh m c t g
  rw [e0, e1, e2, e3, e4, e5, e6, e7]

/-- The new-state array's whole-array function, of the arguments of device `c`. -/
abbrev stateArray (c : Dev nD) : S65536x512.Idx → EReal :=
  hiddenOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- The head array before the host's re-read, 65536 × 64: entry (b, v) is entry `v` of both heads of row `b`. -/
abbrev wideHeads (c : Dev nD) : S65536x64.Idx → EReal := fun i =>
  headsAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11)) (i 0) (i 1)

/-- WHAT POINT `t` WRITES BACK to the new-state array is rows 512·t … 512·t + 511 of `stateArray`. -/
theorem state_flushed (c : Dev nD) (t : Fin cfg0.N) :
    (dats m 0 c).flushed 11 t = ((cfg0.win 11).blk t).view.read (Elt Ideal) (stateArray m c) := by
  show (cfg0.win 11).cut (grid0.coords t) ((dats m 0 c).after 11 t) = _
  rw [after0_11]
  unfold out0_11
  rw [View.canon_unit_zero hz2]
  simp only [View.ld_unit_zero (S := S512x512) hz2, View.ld_unit_zero (S := S512x256) hz2, View.ld_unit_zero (S := S256x512) hz2,
    View.ld_unit_zero (S := S512) hz1, View.ld_unit_zero (S := S512x1536) hz2, View.ld_unit_zero (S := S1536) hz1]
  funext y
  obtain ⟨p, u, rfl⟩ : ∃ (p u : Fin 512), y = (ix2 p u : S512x512.Idx) := ⟨y 0, y 1, eq_ix2 (n0 := 512) (n1 := 512) y⟩
  obtain ⟨_, _, _, _, _, _, h0, h1, _⟩ := index_facts t
  have e : ((cfg0.win 11).blk t).view.emb (ix2 p u) = (ix2 (batchRow t p) u : S65536x512.Idx) := funext fun a => Fin.ext (by
    match a with
    | ⟨0, _⟩ => show win0_11.index t (0 : Fin 2) * 512 + 1 * p.val = t.val * 512 + p.val; rw [h0]; omega
    | ⟨1, _⟩ => show win0_11.index t (1 : Fin 2) * 512 + 1 * u.val = u.val; rw [h1]; omega)
  show _ = stateArray m c (((cfg0.win 11).blk t).view.emb (ix2 p u))
  rw [e]
  exact state_rows m c t p u

/-- An index of the new-state array is in point `t`'s block iff each coordinate is in the block's range. -/
theorem mem_stateBlock (t : Fin cfg0.N) (i : S65536x512.Idx) :
    i ∈ ((cfg0.win 11).blk t).view.set ↔ ∀ a : Fin 2, win0_11.index t a * S512x512.size a ≤ (i a).val
      ∧ (i a).val < win0_11.index t a * S512x512.size a + S512x512.size a := by
  show i ∈ ((View.whole main_v10_1).slice (win0_11.rect t)).set ↔ _
  rw [View.set_slice_whole, Rect.mem_set_unit]
  exact Iff.rfl

/-- Every row of the new-state array lies in the block of point `row / 512`. -/
theorem state_cover (i : S65536x512.Idx) : ∃ t : Fin cfg0.N, (cfg0.win 11).flush t = true ∧ i ∈ ((cfg0.win 11).blk t).view.set := by
  have hi0 : (i 0).val < 65536 := (i 0).isLt
  have hi1 : (i 1).val < 512 := (i 1).isLt
  have hN : cfg0.N = 128 := N_0
  refine ⟨⟨(i 0).val / 512, by rw [hN]; omega⟩, flush0_11 _, ?_⟩
  rw [mem_stateBlock]
  obtain ⟨_, _, _, _, _, _, h0, h1, _⟩ := index_facts ⟨(i 0).val / 512, by rw [hN]; omega⟩
  intro a
  match a with
  | ⟨0, _⟩ =>
    show win0_11.index ⟨(i 0).val / 512, _⟩ (0 : Fin 2) * 512 ≤ (i 0).val ∧ (i 0).val < win0_11.index ⟨(i 0).val / 512, _⟩ (0 : Fin 2) * 512 + 512
    rw [h0]; show (i 0).val / 512 * 512 ≤ (i 0).val ∧ (i 0).val < (i 0).val / 512 * 512 + 512; omega
  | ⟨1, _⟩ =>
    show win0_11.index ⟨(i 0).val / 512, _⟩ (1 : Fin 2) * 512 ≤ (i 1).val ∧ (i 1).val < win0_11.index ⟨(i 0).val / 512, _⟩ (1 : Fin 2) * 512 + 512
    rw [h1]; omega

/-- THE NEW-STATE ARRAY after the region. -/
theorem state_final (c : Dev nD) : (dats m 0 c).arrAt 11 cfg0.N = stateArray m c :=
  (dats m 0 c).arrAt_eq_of_cover 11 (stateArray m c) (fun t _ => state_flushed m c t) state_cover

/-- The body's head value at (p, v) of point `t`'s blocks is entry `v` of both heads of batch row `512·t + p`. -/
theorem heads_rows (c : Dev nD) (t : Fin cfg0.N) (p : Fin 512) (v : Fin 64) :
    k0_pay2 (iblk m c 1 t)
        (k0_pay5 (iblk m c 0 t) (iblk m c 2 t) (iblk m c 3 t) (iblk m c 1 t) (iblk m c 4 t) (iblk m c 5 t) (iblk m c 6 t) (iblk m c 7 t))
        (k0_pay6 (iblk m c 0 t) (iblk m c 2 t) (iblk m c 3 t) (iblk m c 1 t) (iblk m c 4 t) (iblk m c 5 t) (iblk m c 6 t) (iblk m c 7 t))
        (Scalar.ofBits .f32 0x3F800000#32) (iblk m c 8 t) (iblk m c 9 t) (ix2 p v)
      = wideHeads m c (ix2 (batchRow t p) v) := by
  refine (Cert.Gru.Body.heads_apply (iblk m c 1 t) (iblk m c 8 t) (iblk m c 9 t)
    (k0_pay5 (iblk m c 0 t) (iblk m c 2 t) (iblk m c 3 t) (iblk m c 1 t) (iblk m c 4 t) (iblk m c 5 t) (iblk m c 6 t) (iblk m c 7 t))
    (k0_pay6 (iblk m c 0 t) (iblk m c 2 t) (iblk m c 3 t) (iblk m c 1 t) (iblk m c 4 t) (iblk m c 5 t) (iblk m c 6 t) (iblk m c 7 t))
    (Scalar.ofBits .f32 0x3F800000#32) p v).trans ?_
  show _ = headsAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11)) (batchRow t p) v
  unfold headsAt
  have e0 : (fun k => k0_pay1 (iblk m c 1 t)
        (k0_pay5 (iblk m c 0 t) (iblk m c 2 t) (iblk m c 3 t) (iblk m c 1 t) (iblk m c 4 t) (iblk m c 5 t) (iblk m c 6 t) (iblk m c 7 t))
        (k0_pay6 (iblk m c 0 t) (iblk m c 2 t) (iblk m c 3 t) (iblk m c 1 t) (iblk m c 4 t) (iblk m c 5 t) (iblk m c 6 t) (iblk m c 7 t))
        (Scalar.ofBits .f32 0x3F800000#32) (ix2 p k))
      = hiddenAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (batchRow t p) :=
    funext fun k => state_rows m c t p k
  have e1 : (fun k => (iblk m c 8 t : Vec Ideal S512x64 .bf16) (ix2 k v))
      = fun k => stackedWeight (m ((c : Thread nD τ).loc main_arg8)) (m ((c : Thread nD τ).loc main_arg10)) k v :=
    funext fun k => (block_w2 m c t k v).trans (found_w2 m c k v)
  have e2 : (iblk m c 9 t : Vec Ideal S64 .f32) (ix1 v)
      = stackedBias (m ((c : Thread nD τ).loc main_arg9)) (m ((c : Thread nD τ).loc main_arg11)) v :=
    (block_b2 m c t v).trans (found_b2 m c v)
  rw [e0, e1, e2]

/-- WHAT POINT `t` WRITES BACK to the head array is rows 512·t … 512·t + 511 of `wideHeads`. -/
theorem heads_flushed (c : Dev nD) (t : Fin cfg0.N) :
    (dats m 0 c).flushed 10 t = ((cfg0.win 10).blk t).view.read (Elt Ideal) (wideHeads m c) := by
  show (cfg0.win 10).cut (grid0.coords t) ((dats m 0 c).after 10 t) = _
  rw [after0_10]
  unfold out0_10
  rw [View.canon_unit_zero hz2]
  simp only [View.ld_unit_zero (S := S512x512) hz2, View.ld_unit_zero (S := S512x256) hz2, View.ld_unit_zero (S := S256x512) hz2,
    View.ld_unit_zero (S := S512) hz1, View.ld_unit_zero (S := S512x1536) hz2, View.ld_unit_zero (S := S1536) hz1,
    View.ld_unit_zero (S := S512x64) hz2, View.ld_unit_zero (S := S64) hz1]
  funext y
  obtain ⟨p, v, rfl⟩ : ∃ (p : Fin 512) (v : Fin 64), y = (ix2 p v : S512x64.Idx) := ⟨y 0, y 1, eq_ix2 (n0 := 512) (n1 := 64) y⟩
  obtain ⟨_, _, _, _, h0, h1, _⟩ := index_facts t
  have e : ((cfg0.win 10).blk t).view.emb (ix2 p v) = (ix2 (batchRow t p) v : S65536x64.Idx) := funext fun a => Fin.ext (by
    match a with
    | ⟨0, _⟩ => show win0_10.index t (0 : Fin 2) * 512 + 1 * p.val = t.val * 512 + p.val; rw [h0]; omega
    | ⟨1, _⟩ => show win0_10.index t (1 : Fin 2) * 64 + 1 * v.val = v.val; rw [h1]; omega)
  show _ = wideHeads m c (((cfg0.win 10).blk t).view.emb (ix2 p v))
  rw [e]
  exact heads_rows m c t p v

/-- An index of the head array is in point `t`'s block iff each coordinate is in the block's range. -/
theorem mem_headsBlock (t : Fin cfg0.N) (i : S65536x64.Idx) :
    i ∈ ((cfg0.win 10).blk t).view.set ↔ ∀ a : Fin 2, win0_10.index t a * S512x64.size a ≤ (i a).val
      ∧ (i a).val < win0_10.index t a * S512x64.size a + S512x64.size a := by
  show i ∈ ((View.whole main_v10_0).slice (win0_10.rect t)).set ↔ _
  rw [View.set_slice_whole, Rect.mem_set_unit]
  exact Iff.rfl

/-- Every row of the head array lies in the block of point `row / 512`. -/
theorem heads_cover (i : S65536x64.Idx) : ∃ t : Fin cfg0.N, (cfg0.win 10).flush t = true ∧ i ∈ ((cfg0.win 10).blk t).view.set := by
  have hi0 : (i 0).val < 65536 := (i 0).isLt
  have hi1 : (i 1).val < 64 := (i 1).isLt
  have hN : cfg0.N = 128 := N_0
  refine ⟨⟨(i 0).val / 512, by rw [hN]; omega⟩, flush0_10 _, ?_⟩
  rw [mem_headsBlock]
  obtain ⟨_, _, _, _, h0, h1, _⟩ := index_facts ⟨(i 0).val / 512, by rw [hN]; omega⟩
  intro a
  match a with
  | ⟨0, _⟩ =>
    show win0_10.index ⟨(i 0).val / 512, _⟩ (0 : Fin 2) * 512 ≤ (i 0).val ∧ (i 0).val < win0_10.index ⟨(i 0).val / 512, _⟩ (0 : Fin 2) * 512 + 512
    rw [h0]; show (i 0).val / 512 * 512 ≤ (i 0).val ∧ (i 0).val < (i 0).val / 512 * 512 + 512; omega
  | ⟨1, _⟩ =>
    show win0_10.index ⟨(i 0).val / 512, _⟩ (1 : Fin 2) * 64 ≤ (i 1).val ∧ (i 1).val < win0_10.index ⟨(i 0).val / 512, _⟩ (1 : Fin 2) * 64 + 64
    rw [h1]; omega

/-- THE HEAD ARRAY after the region, before the host's re-read. -/
theorem heads_final (c : Dev nD) : (dats m 0 c).arrAt 10 cfg0.N = wideHeads m c :=
  (dats m 0 c).arrAt_eq_of_cover 10 (wideHeads m c) (fun t _ => heads_flushed m c t) heads_cover

/-! ## After the region: the host's row-major re-read, and the run -/

/-- The head values as the 131072 × 32 result, of the arguments of device `c`. -/
abbrev headsArray (c : Dev nD) : S131072x32.Idx → EReal :=
  headsOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))

/-- The 65536 × 64 head array re-read row-major as 131072 × 32: position n = 32·i₀ + i₁ is entry (n / 64, n mod 64). -/
theorem reread (c : Dev nD) :
    (shapeCast S131072x32 (wideHeads m c) shapeCasts_S65536x64_S131072x32 : S131072x32.Idx → EReal) = headsArray m c := by
  funext i
  have h0 : (i 0).val < 131072 := (i 0).isLt
  have h1 : (i 1).val < 32 := (i 1).isLt
  refine (shapeCast_apply (wideHeads m c) shapeCasts_S65536x64_S131072x32 i
    (ix2 (⟨((i 0).val * 32 + (i 1).val) / 64, by omega⟩ : Fin 65536) (⟨((i 0).val * 32 + (i 1).val) % 64, Nat.mod_lt _ (by norm_num)⟩ : Fin 64)) ?_).trans rfl
  rw [Shape.rowMajor_val_two, Shape.rowMajor_val_two]
  show ((i 0).val * 32 + (i 1).val) / 64 * 64 + ((i 0).val * 32 + (i 1).val) % 64 = (i 0).val * 32 + (i 1).val
  omega

/-- The result of the host operation after the region. -/
theorem heads_tail (c : Dev nD) :
    Pipeline.afterTail₀ cfgs (dats m) 0 (V0 m) [hostOps1] c main_v11 = headsArray m c := by
  unfold Pipeline.afterTail₀
  show StableHlo.after hostOps1 _ (Proc.devRef .tc main_v11) = _
  after_results
  have hw : Pipeline.withArrays (cfgs 0).spec c (V0 m c) (fun w => (dats m 0 c).arrAt w (cfgs 0).N) (Proc.devRef .tc main_v10_0)
      = wideHeads m c :=
    (Pipeline.withArrays_arr spec0 launch0.win.arr_inj c (V0 m c) (fun w => (dats m 0 c).arrAt w cfg0.N) 10).trans (heads_final m c)
  show (shapeCast S131072x32 (Pipeline.withArrays (cfgs 0).spec c (V0 m c) (fun w => (dats m 0 c).arrAt w (cfgs 0).N)
    (Proc.devRef .tc main_v10_0)) shapeCasts_S65536x64_S131072x32 : S131072x32.Idx → EReal) = _
  rw [hw]
  exact reread m c

/-- THE KERNEL'S RUN, READ: every weakly fair execution terminates with the head result at `headsArray`, the new-state
    result at `stateArray`, and the twelve argument arrays unchanged. -/
theorem run : θ_run defs (onTc (τ := τ) (main (F := Ideal))) ⟨m, fun _ => 0, ρ⟩ fun r => ∀ c : Dev nD,
      r.2.mem ((c.tc : Thread nD τ).loc main_v11) = headsArray m c
      ∧ r.2.mem ((c.tc : Thread nD τ).loc main_v10_1) = stateArray m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c =>
    ⟨((h c).2 main_v11 (Pipeline.mem_restRefs_of main_v11 (by decide) (by decide))).trans (heads_tail m c),
      ((h c).1 11).trans (state_final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c)⟩)
    (run_main m ρ)

end Cert.Gru.Region

end
-- ==== Proof.lean ====
/-
  One step of a recurrent agent over 65536 batch rows, computed by a kernel that handles 512 rows per grid point, is
  the same pair of arrays as its plain array-language reference, on the extended reals.

  Per batch row: a rectified input layer (256 → 512), a gated recurrent unit on the 512-entry state (three gates from
  two dense layers of 1536 rows each, the logistic function on two of them and the hyperbolic tangent on the third),
  and two linear output heads of 32 entries.  The kernel reads the weights already transposed and the two heads stacked
  into one 512 × 64 matrix, and leaves the head values as a 65536 × 64 array that is re-read row-major as 131072 × 32;
  the reference multiplies by the transposes, computes the heads apart, stacks them along a new middle axis and
  flattens.  Both are the specification's two whole-array functions (module Spec): the reference by reading its
  operations one at a time at an index (module ReferenceValue), the kernel by reading what each grid point writes back
  and that the points' blocks tile both result arrays (modules BodyValue, RegionValue).  No law beyond the definitions
  of the operations on the extended reals is used — the sums are taken in the same order on both sides, a change of
  float format is the identity, and the logistic function is by definition the quotient 1 / (1 + e^(−t)) the reference
  spells out — so the finiteness of the inputs is never opened.

  The kernel's idealization rewrote nothing, so its soundness conjunct is trivial; the three frames are the generated
  frame runs (for the reference, its generated run with the results dropped).
-/
import proofs.«105232_j18193481466268_2_alg».proof.Defs
import proofs.«105232_j18193481466268_2_alg».proof.Proof.Gen.Kernel
import proofs.«105232_j18193481466268_2_alg».proof.Proof.Gen.Kernel.Skeleton
import proofs.«105232_j18193481466268_2_alg».proof.Proof.Gen.Kernel.Launch
import proofs.«105232_j18193481466268_2_alg».proof.Proof.Gen.Kernel.Points
import proofs.«105232_j18193481466268_2_alg».proof.Proof.Gen.Kernel.Frame
import proofs.«105232_j18193481466268_2_alg».proof.Proof.Gen.KernelIdeal
import proofs.«105232_j18193481466268_2_alg».proof.Proof.Gen.KernelIdeal.Skeleton
import proofs.«105232_j18193481466268_2_alg».proof.Proof.Gen.KernelIdeal.Launch
import proofs.«105232_j18193481466268_2_alg».proof.Proof.Gen.KernelIdeal.Points
import proofs.«105232_j18193481466268_2_alg».proof.Proof.Gen.KernelIdeal.Frame
import proofs.«105232_j18193481466268_2_alg».proof.Proof.Gen.ReferenceIdeal
import proofs.«105232_j18193481466268_2_alg».proof.Proof.Gen.ReferenceIdeal.Run
import proofs.«105232_j18193481466268_2_alg».proof.Proof.Gen.ReferenceIdeal.Read
import proofs.«105232_j18193481466268_2_alg».proof.Proof.Gen.Pre_finite_inputs
import proofs.«105232_j18193481466268_2_alg».proof.Proof.Spec
import proofs.«105232_j18193481466268_2_alg».proof.Proof.ReferenceValue
import proofs.«105232_j18193481466268_2_alg».proof.Proof.RegionValue
import Idealize.ShloMosaic.Adequacy
import Idealize.ShloMosaic.Init

noncomputable section

namespace Cert.Proof

open Idealize.ShloMosaic Idealize.SL.Sem

/-- The kernel as printed terminates without a fault and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with what it says of the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the twelve arguments, the kernel ends with the head result at `headsOut` and the
    new-state result at `hiddenOut` of its arguments, and the reference with its two results at the same two functions
    of its own, equal, arguments. -/
theorem algebraic : Cert.algebraic_KernelIdeal_ReferenceIdeal := by
  intro m ρ m' ρ' _ hagree
  refine ⟨fun c => Cert.Gru.Region.headsArray m c, fun c => Cert.Gru.Region.stateArray m c, Cert.Gru.Region.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11⟩ := hagree c
    rw [Cert.ReferenceIdeal.Read.val_main_v57_eq, Cert.Gru.Reference.heads_eq, a0, a1, a2, a3, a4, a5, a6, a7, a8, a9, a10, a11]
  · obtain ⟨a0, a1, a2, a3, a4, a5, a6, a7, _⟩ := hagree c
    rw [Cert.ReferenceIdeal.Read.val_main_v43_eq, Cert.Gru.Reference.hidden_eq, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
